-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) (main_arg2 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  main_v13
-- ==== Kernel.lean ====
abbrev S8x4096x256 : Shape := ⟨3, ![8, 4096, 256]⟩
abbrev S8x256x256 : Shape := ⟨3, ![8, 256, 256]⟩
abbrev S1x2048x256 : Shape := ⟨3, ![1, 2048, 256]⟩
abbrev S1x256x256 : Shape := ⟨3, ![1, 256, 256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 5
  | .vmem => 13
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x256x256, .bf16⟩
  | .hbm, ⟨4, _⟩ => ⟨S8x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | .local _ .vmem, ⟨7, _⟩ => ⟨S1x2048x256, .f32⟩
  | .local _ .vmem, ⟨8, _⟩ => ⟨S1x2048x256, .f32⟩
  | .local _ .vmem, ⟨9, _⟩ => ⟨S1x256x256, .bf16⟩
  | .local _ .vmem, ⟨10, _⟩ => ⟨S1x256x256, .bf16⟩
  | .local _ .vmem, ⟨11, _⟩ => ⟨S1x2048x256, .f32⟩
  | .local _ .vmem, ⟨12, _⟩ => ⟨S1x2048x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  shapeCasts_S2048x256_S1x2048x256 : S2048x256.ShapeCasts S1x2048x256
  dot_S2048x256_S2048x256_S256x256_0_0_1_1_n_n_wf : DotDims.WF S2048x256 S2048x256 S256x256 [0] [0] [1] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x4096x256.size a
  hwx0_0 : ∀ i : grid0.Coords, EltTy.bits .f32 = 32 ∨ (Rect.block (s := S8x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x4096x256.size a
  hwx0_1 : ∀ i : grid0.Coords, EltTy.bits .f32 = 32 ∨ (Rect.block (s := S8x4096x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .bf16 = 32 ∨ (Rect.block (s := S8x256x256) S1x256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x4096x256.size a
  hwx1_0 : ∀ i : grid1.Coords, EltTy.bits .f32 = 32 ∨ (Rect.block (s := S8x4096x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S8x256x256.size a
  hwx1_1 : ∀ i : grid1.Coords, EltTy.bits .bf16 = 32 ∨ (Rect.block (s := S8x256x256) S1x256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S8x4096x256.size a
  hwx1_2 : ∀ i : grid1.Coords, EltTy.bits .f32 = 32 ∨ (Rect.block (s := S8x4096x256) S1x2048x256.size (cc1_transform_2 i) (hinb1_2 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg1) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S8x256x256 : Shape := ⟨3, ![8, 256, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S8x4096x256, .f32⟩
  | .hbm, ⟨12, _⟩ => ⟨S8x4096x256, .f32⟩
  | .hbm, ⟨13, _⟩ => ⟨S8x4096x256, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x256, .f32⟩
  | .hbm, ⟨22, _⟩ => ⟨S8x4096x256, .f32⟩
  | .hbm, ⟨23, _⟩ => ⟨S8x256x256, .f32⟩
  | .hbm, ⟨24, _⟩ => ⟨S8x4096x256, .f32⟩
  | .hbm, ⟨25, _⟩ => ⟨S_, .f32⟩
  | .hbm, ⟨26, _⟩ => ⟨S8x4096x256, .f32⟩
  | .hbm, ⟨27, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S_S8x4096x256 : S_.BroadcastsInDim S8x4096x256 (![] : Fin 0 → Fin S8x4096x256.rank)
  dot_S8x4096x256_S8x4096x256_S8x256x256_1_1_2_2_0_0_wf : DotDims.WF S8x4096x256 S8x4096x256 S8x256x256 [1] [1] [2] [2] [0] [0]
  dot_S8x4096x256_S8x256x256_S8x4096x256_2_1_1_2_0_0_wf : DotDims.WF S8x4096x256 S8x256x256 S8x4096x256 [2] [1] [1] [2] [0] [0]

variable [Facts₀]

def dot_S8x4096x256_S8x4096x256_S8x256x256_1_1_2_2_0_0 : DotDims S8x4096x256 S8x4096x256 S8x256x256 where
  lhsContracting := [1]
  rhsContracting := [1]
  lhsNonContracting := [2]
  rhsNonContracting := [2]
  lhsBatch := [0]
  rhsBatch := [0]
  wf := dot_S8x4096x256_S8x4096x256_S8x256x256_1_1_2_2_0_0_wf
def dot_S8x4096x256_S8x256x256_S8x4096x256_2_1_1_2_0_0 : DotDims S8x4096x256 S8x256x256 S8x4096x256 where
  lhsContracting := [2]
  rhsContracting := [1]
  lhsNonContracting := [1]
  rhsNonContracting := [2]
  lhsBatch := [0]
  rhsBatch := [0]
  wf := dot_S8x4096x256_S8x256x256_S8x4096x256_2_1_1_2_0_0_wf

class Facts : Prop extends Facts₀ where

variable [Facts]
-- ==== Proof.K.R0Shared.lean ====
/-
  The first kernel region (the key/value summary kernel), what its two cases share.  The grid is 8 × 2: point
  t = 2·b + h handles half h of batch b.  At h = 0 the body overwrites its 256×256 accumulator with the half's partial
  product; at h = 1 it adds the partial product to the accumulator and stores the accumulator into the output block of
  batch b.  Here: the windows' blocks, the three branch conditions in closed form over the grid, where the output
  window is idle, the staging and accumulator buffers, and the region's resting invariant spelt out.
-/
import proofs.«128375_j39152921870872_2_alg».proof.Proof.Gen.Kernel.Launch
import proofs.«128375_j39152921870872_2_alg».proof.Proof.Gen.Kernel.Skeleton
import proofs.«128375_j39152921870872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The keys' staging buffer holds the point's block of keys. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The values' staging buffer holds the point's block of values. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The branch conditions, from the grid coordinates -/

/-- "This is the first half of the batch" (h = 0), as the body computes it. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is not the first half" (h ≠ 0). -/
abbrev cond0_1 (i : grid0.Coords) : Prop := (Scalar.cmpi .ne (Scalar.extui (Scalar.cmpi .ne (BitVec.ofNat 32 (i 1).val) 0#32)) 0#32) = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- "This is the last half" (h = 1). -/
abbrev cond0_2 (i : grid0.Coords) : Prop := k0_cond3 i = 1#1
/-- It holds at the odd points. -/
theorem hcond0_2 : ∀ t : Fin cfg0.N, cond0_2 (grid0.coords t) ↔ t.val % 2 = 1 :=
  (by decide +kernel : ∀ t : Fin grid0.N, cond0_2 (grid0.coords t) ↔ t.val % 2 = 1)

/-- At an even point: the first branch only. -/
theorem caseA (t : Fin cfg0.N) (h : t.val % 2 = 0) :
    cond0_0 (grid0.coords t) ∧ ¬cond0_1 (grid0.coords t) ∧ ¬cond0_2 (grid0.coords t) :=
  ⟨(hcond0_0 t).mpr h, fun h1 => by have := (hcond0_1 t).mp h1; omega, fun h2 => by have := (hcond0_2 t).mp h2; omega⟩

/-- At an odd point: the second and the third branch. -/
theorem caseB (t : Fin cfg0.N) (h : ¬t.val % 2 = 0) :
    ¬cond0_0 (grid0.coords t) ∧ cond0_1 (grid0.coords t) ∧ cond0_2 (grid0.coords t) :=
  ⟨fun h0 => h ((hcond0_0 t).mp h0), (hcond0_1 t).mpr (by omega), (hcond0_2 t).mpr (by omega)⟩

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At an even point nothing is stored into the output block: the window is idle, -/
theorem idleAt0_2_A : ∀ t : Fin cfg0.N, cond0_0 (grid0.coords t) → ¬cond0_1 (grid0.coords t) → ¬cond0_2 (grid0.coords t) → cfg0.idle 2 (grid0.coords t) = true := by decide +kernel
/-- and the block is not written back there. -/
theorem noFlush0_2_A : ∀ t : Fin cfg0.N, cond0_0 (grid0.coords t) → ¬cond0_1 (grid0.coords t) → ¬cond0_2 (grid0.coords t) → (cfg0.win 2).flush t = false := by decide +kernel
/-- At an odd point the output block is stored. -/
theorem liveAt0_2_B : ∀ t : Fin cfg0.N, ¬cond0_0 (grid0.coords t) → cond0_1 (grid0.coords t) → cond0_2 (grid0.coords t) → cfg0.idle 2 (grid0.coords t) = false := by decide +kernel

/-! ## The buffers the body is called with -/

/-- One staging buffer of the output window, through which its contents are stated. -/
abbrev VO0_2 : View sig .tc .vmem S1x256x256 .bf16 := (Memref.whole cc0_stg2_0 : Memref sig .tc .vmem S1x256x256 .bf16).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x256 .f32 := Memref.whole cc0_scratch0
abbrev VS0_0 : View sig .tc .vmem S256x256 .f32 := scM0_0.view

/-- The scoped buffers of the core that this region neither stages nor uses (the other region's staging buffers), each
    whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant spelt out: the accumulator at some contents, the other scoped buffers, the generator
    register at some state. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA others; rw [scopedRest0_eq]; simp only [scM0_0, owns_whole]; try rfl

end Cert.Kernel.Hand

end
-- ==== Proof.K.R0RunA.lean ====
/-
  The summary kernel's body at a point of the first half of a batch (h = 0): it reads the block of keys and the block
  of values and overwrites the accumulator with their partial product; the output block is left untouched.  The
  pieces the accumulator ends with are found by running the body.
-/
import proofs.«128375_j39152921870872_2_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs' at `x0`, `x1`, the output's at `xi2` (handed back untouched), the accumulator at
    anything — the body runs to the continuation with the inputs and the output as they were and the accumulator with its
    pieces `LS0` written. -/
noncomputable def kernelRun0_A (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) :
    Σ' (L2 : List (View.Piece (Elt F) S1x256x256 .bf16)), { LS0 : List (View.Piece (Elt F) S256x256 .f32) //
      ∀ (xi2 : Vec F S1x256x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R0RunB.lean ====
/-
  The summary kernel's body at a point of the second half of a batch (h = 1): it adds the half's partial product to
  the accumulator and stores the accumulator into the output block.  The pieces the output block and the accumulator
  end with are found by running the body.
-/
import proofs.«128375_j39152921870872_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs' at `x0`, `x1`, the output's at anything, the accumulator at what the point before
    left (`xs0`) — the body runs to the continuation with the inputs as they were, the output with its pieces `L2` written
    and the accumulator with its pieces `LS0` written. -/
noncomputable def kernelRun0_B (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) :
    Σ' (L2 : List (View.Piece (Elt F) S1x256x256 .bf16)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Region0.lean ====
/-
  The first kernel region (the key/value summary kernel) at any float instance: what the output block and the
  accumulator hold after each grid point, by recursion on the point — an even point t = 2·b overwrites the accumulator
  with its half's partial product and leaves the output block alone; the odd point after it adds its half's partial
  product to what the even point left and stores the sum into the output block —, the invariant that carries the
  accumulator's contents from each point to the next, the region's proof data and the body's triple at a generic point.
-/
import proofs.«128375_j39152921870872_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- An even point stores nothing into the output block: a placeholder that nothing consults (the window is idle and
    not written back at these points). -/
def out0_A_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) : Vec F S1x256x256 .bf16 :=
  VO0_2.read (Elt F) (VO0_2.writes (Elt F) VO0_2.junk (kernelRun0_A c i arg2 harg2 arg3 harg3 arg4 harg4 arg5 harg5 hc0 hc1 hc2 x0 x1).1)

/-- An even point's pieces cover the accumulator. -/
theorem scover0_A_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) (y : S256x256.Idx) :
    ∃ pc ∈ (kernelRun0_A c i arg2 harg2 arg3 harg3 arg4 harg4 arg5 harg5 hc0 hc1 hc2 x0 x1).2.1, y ∈ pc.1.set :=
  View.cover_of_tiledL (kernelRun0_A c i arg2 harg2 arg3 harg3 arg4 harg4 arg5 harg5 hc0 hc1 hc2 x0 x1).2.1 S256x256.size (by sl_kernel_rfl) y

/-- What an even point leaves in the accumulator. -/
def sout0_A_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) : Vec F S256x256 .f32 :=
  VS0_0.read (Elt F) (VS0_0.writes (Elt F) VS0_0.junk (kernelRun0_A c i arg2 harg2 arg3 harg3 arg4 harg4 arg5 harg5 hc0 hc1 hc2 x0 x1).2.1)

/-- An odd point's pieces cover the output block. -/
theorem cover0_B_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) (y : S1x256x256.Idx) :
    ∃ pc ∈ (kernelRun0_B c i arg2 harg2 arg3 harg3 arg4 harg4 arg5 harg5 hc0 hc1 hc2 x0 x1 xs0).1, y ∈ pc.1.set :=
  View.cover_of_tiledL (kernelRun0_B c i arg2 harg2 arg3 harg3 arg4 harg4 arg5 harg5 hc0 hc1 hc2 x0 x1 xs0).1 S1x256x256.size (by sl_kernel_rfl) y

/-- What an odd point leaves in the output block. -/
def out0_B_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : Vec F S1x256x256 .bf16 :=
  VO0_2.read (Elt F) (VO0_2.writes (Elt F) VO0_2.junk (kernelRun0_B c i arg2 harg2 arg3 harg3 arg4 harg4 arg5 harg5 hc0 hc1 hc2 x0 x1 xs0).1)

/-- An odd point's pieces cover the accumulator. -/
theorem scover0_B_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) (y : S256x256.Idx) :
    ∃ pc ∈ (kernelRun0_B c i arg2 harg2 arg3 harg3 arg4 harg4 arg5 harg5 hc0 hc1 hc2 x0 x1 xs0).2.1, y ∈ pc.1.set :=
  View.cover_of_tiledL (kernelRun0_B c i arg2 harg2 arg3 harg3 arg4 harg4 arg5 harg5 hc0 hc1 hc2 x0 x1 xs0).2.1 S256x256.size (by sl_kernel_rfl) y

/-- What an odd point leaves in the accumulator. -/
def sout0_B_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : Vec F S256x256 .f32 :=
  VS0_0.read (Elt F) (VS0_0.writes (Elt F) VS0_0.junk (kernelRun0_B c i arg2 harg2 arg3 harg3 arg4 harg4 arg5 harg5 hc0 hc1 hc2 x0 x1 xs0).2.1)

section
variable (V : (c : Dev nD) → (b : Ref sig .tc) → Buf (Elt F) ((c : Thread nD τ).loc b))

/-! ## What the output block and the accumulator hold after each point -/

/-- After an even point `t`: the output block's placeholder, and the accumulator at the half's partial product. -/
def ptA (c : Dev nD) (t : Fin cfg0.N) (h : t.val % 2 = 0) : Vec F S1x256x256 .bf16 × Vec F S256x256 .f32 :=
  (out0_A_2 c (grid0.coords t) (ms0_0 t) (hs0_0 t) (ms0_1 t) (hs0_1 t) (ms0_2 t) (hs0_2 t) scM0_0 (Memref.isWhole_whole _) (caseA t h).1 (caseA t h).2.1 (caseA t h).2.2 (iblk0 V c 0 t) (iblk0 V c 1 t),
   sout0_A_0 c (grid0.coords t) (ms0_0 t) (hs0_0 t) (ms0_1 t) (hs0_1 t) (ms0_2 t) (hs0_2 t) scM0_0 (Memref.isWhole_whole _) (caseA t h).1 (caseA t h).2.1 (caseA t h).2.2 (iblk0 V c 0 t) (iblk0 V c 1 t))

/-- After an odd point `t`, from what the point before left in the accumulator. -/
def ptB (c : Dev nD) (t : Fin cfg0.N) (h : ¬t.val % 2 = 0) (xs : Vec F S256x256 .f32) : Vec F S1x256x256 .bf16 × Vec F S256x256 .f32 :=
  (out0_B_2 c (grid0.coords t) (ms0_0 t) (hs0_0 t) (ms0_1 t) (hs0_1 t) (ms0_2 t) (hs0_2 t) scM0_0 (Memref.isWhole_whole _) (caseB t h).1 (caseB t h).2.1 (caseB t h).2.2 (iblk0 V c 0 t) (iblk0 V c 1 t) xs,
   sout0_B_0 c (grid0.coords t) (ms0_0 t) (hs0_0 t) (ms0_1 t) (hs0_1 t) (ms0_2 t) (hs0_2 t) scM0_0 (Memref.isWhole_whole _) (caseB t h).1 (caseB t h).2.1 (caseB t h).2.2 (iblk0 V c 0 t) (iblk0 V c 1 t) xs)

/-- The accumulation, by recursion on the point: (the output block's staging buffer, the accumulator) after point `n`. -/
def outsAt0 (c : Dev nD) : (n : ℕ) → n < cfg0.N → Vec F S1x256x256 .bf16 × Vec F S256x256 .f32
  | 0, hn => ptA V c ⟨0, hn⟩ (Nat.zero_mod _)
  | n + 1, hn =>
    if h0 : (n + 1) % 2 = 0 then ptA V c ⟨n + 1, hn⟩ h0
    else ptB V c ⟨n + 1, hn⟩ h0 (outsAt0 c n (Nat.lt_of_succ_lt hn)).2

theorem outsAt0_A (c : Dev nD) (t : Fin cfg0.N) (h0 : t.val % 2 = 0) :
    outsAt0 V c t.val t.isLt = ptA V c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 V c t.val t.isLt = ptB V c t h0 (outsAt0 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans rfl

/-! ## The invariant that carries the accumulator -/

/-- Before position `n`: at the start the region's resting invariant (the accumulator at anything); afterwards the
    accumulator at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others (F := F) c) ∗ (∃ r, prngReg c r)) := by
  cases n with
  | zero => exact absurd rfl hz
  | succ n => rfl

/-! ## The region's proof data -/

/-- On core `c`: the arrays as the region finds them; after the body at point `t` each input's buffer at its block and
    the output's at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the point says which case it is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · rw [Dat.leavesExact_idle (dat0 V c) 2 t (idleAt0_2_A t (caseA t h0).1 (caseA t h0).2.1 (caseA t h0).2.2) (noFlush0_2_A t (caseA t h0).1 (caseA t h0).2.1 (caseA t h0).2.2)]
    rw [outsAt0_A V c t h0]
    unfold ptA sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ (caseA t h0).1 (caseA t h0).2.1 (caseA t h0).2.2 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ (caseA t h0).1 (caseA t h0).2.1 (caseA t h0).2.2 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _)
          iexact Hoth
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_B t (caseB t h0).1 (caseB t h0).2.1 (caseB t h0).2.2], after0_2]
    rw [outsAt0_B V c t h0]
    unfold ptB out0_B_2 sout0_B_0; (try dsimp only)
    have hz : t.val ≠ 0 := fun e => h0 (by rw [e])
    rw [PhiS_castSucc V c t, PhiS_pos V c _ _ hz]
    iintro ⟨⟨⟨HS0, Hoth⟩, Hg⟩, Ho, ⟨%d0, H0⟩, ⟨%d1, H1⟩, ⟨%d2, H2⟩⟩
    iapply ((kernelRun0_B c (grid0.coords t) _ _ _ _ _ _ _ _ (caseB t h0).1 (caseB t h0).2.1 (caseB t h0).2.2 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _)

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point the invariant gives the resting invariant back: the accumulator's named contents are forgotten. -/
theorem Phi_out (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out V c _ (by rw [Fin.val_last]; have : cfg0.N = 16 := N_0; omega)

end

end Cert.Kernel.Hand

end
-- ==== Proof.K.Region1.lean ====
/-
  The second kernel region (the context kernel) at any float instance: one grid point reads a block of 2048 query
  rows and the 256×256 summary of the point's batch, and writes the block of 2048 context rows — a single store
  covering the whole output block.  Stated at an arbitrary valuation `V` of the buffers at the region's entry:
  what each window's staging buffer holds after the body at each point, and the body's triple at a generic point.
-/
import proofs.«128375_j39152921870872_2_alg».proof.Proof.Gen.Kernel.Launch
import proofs.«128375_j39152921870872_2_alg».proof.Proof.Gen.Kernel.Skeleton
import proofs.«128375_j39152921870872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's block, whether fetched at the point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summary window's staging buffer holds the batch's block at both points of the batch: at the second it is not
    fetched again and the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of 2048 rows, and the whole summary block, as rectangles. -/
abbrev r1_a : Rect S1x2048x256 := Rect.unit (s := S1x2048x256) ![0, 0, 0] S1x2048x256.size inb_S1x2048x256_S1x2048x256_0_0_0
abbrev r1_b : Rect S1x256x256 := Rect.unit (s := S1x256x256) ![0, 0, 0] S1x256x256.size inb_S1x256x256_S1x256x256_0_0_0

/-- The output block after the body: its one store, of the context rows computed from the two input blocks. -/
def out1_2 (x0 : Vec F S1x2048x256 .f32) (x1 : Vec F S1x256x256 .bf16) : Vec F S1x2048x256 .f32 :=
  View.canon [⟨r1_a, k1_pay1 (View.ld x0 r1_a) (View.ld x1 r1_b)⟩]

/-- The one store covers the output block. -/
theorem cover1_2 (p0 : Vec F S1x2048x256 .f32) (y : S1x2048x256.Idx) :
    ∃ pc ∈ ([⟨r1_a, p0⟩] : List (View.Piece (Elt F) S1x2048x256 .f32)), y ∈ pc.1.set :=
  View.cover_of_tiled [⟨r1_a, p0⟩] S1x2048x256.size (by rfl) y

set_option maxHeartbeats 1000000 in
/-- The body on whole staging buffers, the inputs' at contents `x0`, `x1` and the output's at anything, runs to the
    continuation with the inputs' as they were and the output's at `out1_2 x0 x1`. -/
theorem sound_kernel1 (c : Dev nD) (E : Set ℕ) (i : grid1.Coords) (arg2 : Memref sig .tc .vmem S1x2048x256 .f32) (harg2 : arg2.IsWhole)
    (arg3 : Memref sig .tc .vmem S1x256x256 .bf16) (harg3 : arg3.IsWhole) (arg4 : Memref sig .tc .vmem S1x2048x256 .f32) (harg4 : arg4.IsWhole)
    (x0 : Vec F S1x2048x256 .f32) (x1 : Vec F S1x256x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__ctx_kernel i arg2 harg2 arg3 harg3 arg4 harg4) K := by
  simp only [cc1__ctx_kernel_eq_skeleton]; unfold cc1__ctx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`: the arrays as the region finds them; after the body at point `t` each
    input's buffer at its block and the output's at `out1_2` of the two input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The whole program as a run at any float instance: from the launch memory the first kernel region (the key/value
  summary), then the second kernel region (the context), then the return; there is no operation between them.
  The buffer contents at each boundary are a fold from the launch memory: a region leaves each of its arrays at
  what its write-backs leave and every other buffer as it was entered.  Each region is a segment over the thread
  state "every unscoped buffer at the boundary's contents, the generator register at some state, nothing owed";
  the run of the two segments terminates on every core, and the final memory holds the result array at what the
  second region leaves and each argument array as launched.
-/
import proofs.«128375_j39152921870872_2_alg».proof.Proof.Gen.Kernel.Launch
import proofs.«128375_j39152921870872_2_alg».proof.Proof.Gen.Kernel.Skeleton
import proofs.«128375_j39152921870872_2_alg».proof.Proof.Gen.Kernel.Points
import proofs.«128375_j39152921870872_2_alg».proof.Proof.K.Region0
import proofs.«128375_j39152921870872_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At the first region's exit: its arrays at what the pipeline leaves (the inputs as entered, the output's
    write-backs folded), every other buffer as entered.  The second region is entered here. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### What each region finds in the arrays it reads -/

/-- The first region finds the keys and the values as launched. -/
theorem V0_main_arg1 (c : Dev nD) : V0 m c main_arg1 = m ((c : Thread nD τ).loc main_arg1) := rfl
theorem V0_main_arg2 (c : Dev nD) : V0 m c main_arg2 = m ((c : Thread nD τ).loc main_arg2) := rfl
/-- The second region finds the queries as launched: the first region has no window on them. -/
theorem V2_main_arg0 (c : Dev nD) : V2 m c main_arg0 = m ((c : Thread nD τ).loc main_arg0) :=
  W2_of_ne m c main_arg0 (by decide)
/-- The second region finds the summary at what the first region's write-backs leave. -/
theorem V2_main_v0 (c : Dev nD) : V2 m c main_v0 = (dat0 (V0 m) c).arrAt 2 cfg0.N :=
  W2_arr m c 2

/-! ### The arguments end as launched: a region reads an argument through an input window or has no window on it -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := (W4_arr m c 0).trans (((dat1 (V2 m) c).arrAt_in 0 rfl _).trans (A_eq1 (V2 m) c 0))
    _ = W0 m c (Proc.devRef .tc main_arg0) := W2_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 0).trans (((dat0 (V0 m) c).arrAt_in 0 rfl _).trans (A_eq0 (V0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (V0 m) c).arrAt_in 1 rfl _).trans (A_eq0 (V0 m) c 1))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left at the
    contents the second region is entered from.  Its arrays are split out of the unscoped buffers and put back at
    the exit contents; the generator register and the scoped buffers no window stages go into the class invariant,
    from which the record's own invariant at the first point follows, and come back out of the record's invariant
    at the last point; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first region's exit contents,
    left at the contents the launch reads at the end.  Its invariant is the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per kernel call. -/
abbrev segs : List (Pipeline.Seg (pcfgs (F := F)) adm (pdats m) () defs₀ 𝒱₀ L lv) :=
  [ .region (reg0 m), .region (reg1 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state the result array holds what the second region's
    write-backs leave — the second region entered at the first region's exit contents — and each argument array is
    as launched. -/
theorem run : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

/-- THE FRAME: the same run, keeping only that each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.Kernel.Hand

end
-- ==== Proof.Spec.lean ====
/-
  Linear attention over L2-normalised rows, on the extended reals, for arrays of shape [8, 4096, 256]:
  every row of the queries and of the keys is divided by its Euclidean norm clamped below by a small
  constant; the key/value summary is kv[b, c, d] = Σ_j k̂[b, j, c] · v[b, j, d] over all 4096 rows j; the context is
  ctx[b, n, d] = Σ_c q̂[b, n, c] · kv[b, c, d], scaled by 1/4096. The scaling appears in two spellings — a product
  with the binary fraction 2⁻¹², a quotient by 4096 — which agree on every extended real.  The sum over the
  4096 rows may be taken as two halves of 2048 rows: addition on the extended reals is associative.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of the queries, keys, values and of the result. -/
abbrev Big : Shape := ⟨3, ![8, 4096, 256]⟩
/-- The shape of the key/value summary. -/
abbrev Sq : Shape := ⟨3, ![8, 256, 256]⟩

/-- A function of three literal coordinates as a function of a rank-3 index. -/
def of3 {a b c : Nat} (f : Fin a → Fin b → Fin c → EReal) : (⟨3, ![a, b, c]⟩ : Shape).Idx → EReal :=
  fun i => f ⟨(i 0).val, (i 0).isLt⟩ ⟨(i 1).val, (i 1).isLt⟩ ⟨(i 2).val, (i 2).isLt⟩

theorem of3_ix3 {a b c : Nat} (f : Fin a → Fin b → Fin c → EReal) (x : Fin a) (y : Fin b) (z : Fin c) :
    of3 f (ix3 x y z) = f x y z := rfl

/-- The lower clamp of a row's norm (the float 1e-12 as its exact binary value). -/
def eps : EReal := Ideal.ofBits .f32 0x2B8CBCCC#32

/-- A row's Euclidean norm, clamped below by `eps`. -/
def rowNorm (row : Fin 256 → EReal) : EReal :=
  max (Ideal.sqrt (∑ k : Fin 256, row k * row k)) eps

/-- A row divided by its clamped norm, at one entry. -/
def unit (row : Fin 256 → EReal) (c : Fin 256) : EReal := Ideal.div (row c) (rowNorm row)

/-- Row `(b, n)` of an array of shape [8, 4096, 256]. -/
def rowOf (x : Big.Idx → EReal) (b : Fin 8) (n : Fin 4096) : Fin 256 → EReal := fun k => x (ix3 b n k)

/-- The key/value summary at `(b, c, d)`: the sum over all 4096 rows. -/
def kv (k v : Big.Idx → EReal) (b : Fin 8) (c d : Fin 256) : EReal :=
  ∑ j : Fin 4096, unit (rowOf k b j) c * v (ix3 b j d)

/-- The key/value summary as an array of shape [8, 256, 256]. -/
def kvArr (k v : Big.Idx → EReal) : Sq.Idx → EReal := of3 (kv k v)

/-- The unscaled context at `(b, n, d)` from the queries and a summary array. -/
def ctx (q : Big.Idx → EReal) (w : Sq.Idx → EReal) (b : Fin 8) (n : Fin 4096) (d : Fin 256) : EReal :=
  ∑ c : Fin 256, unit (rowOf q b n) c * w (ix3 b c d)

/-- The context scaled by the product with 2⁻¹². -/
def outMul (q : Big.Idx → EReal) (w : Sq.Idx → EReal) : Big.Idx → EReal :=
  of3 fun b n d => ctx q w b n d * Ideal.ofBits .f32 0x39800000#32

/-- The context scaled by the quotient by 4096. -/
def outDiv (q : Big.Idx → EReal) (w : Sq.Idx → EReal) : Big.Idx → EReal :=
  of3 fun b n d => Ideal.div (ctx q w b n d) (Ideal.ofBits .f32 0x45800000#32)

/-- The float 4096.0 denotes the real 4096. -/
theorem ofBits_4096 : Ideal.ofBits .f32 0x45800000#32 = ((4096 : ℝ) : EReal) := by
  simp [Ideal.ofBits, Ideal.ieee]
  rw [← EReal.coe_mul]; norm_num

/-- The float 2⁻¹² denotes the real 1/4096. -/
theorem ofBits_inv4096 : Ideal.ofBits .f32 0x39800000#32 = ((1 / 4096 : ℝ) : EReal) := by
  simp [Ideal.ofBits, Ideal.ieee]
  rw [← EReal.coe_mul]; norm_num

/-- The two scalings are one function: a quotient by 4096 is the product with 1/4096 on every extended real. -/
theorem outMul_eq_outDiv (q : Big.Idx → EReal) (w : Sq.Idx → EReal) : outMul q w = outDiv q w := by
  unfold outMul outDiv
  refine congrArg of3 (funext fun b => funext fun n => funext fun d => ?_)
  rw [ofBits_4096, ofBits_inv4096, Ideal.div_coe (by norm_num : (4096 : ℝ) ≠ 0)]

/-- A sum over 4096 rows is the sum over the first 2048 plus the sum over the last 2048. -/
theorem sum_halves (f : Fin 4096 → EReal) :
    ∑ j : Fin 4096, f j
      = (∑ j : Fin 2048, f ⟨j.val, by omega⟩) + ∑ j : Fin 2048, f ⟨2048 + j.val, by omega⟩ := by
  have h := Fin.sum_univ_add (M := EReal) (a := 2048) (b := 2048) f
  exact h

end Cert.Attn

end
-- ==== Proof.Ref.lean ====
/-
  The reference program computes the specification: read one element of the reference's result at literal
  coordinates (b, n, d), stage by stage.  The sum of squares of a row, its square root clamped below, the row
  divided by it; the key/value summary as a sum over the 4096 rows; the context as a sum over the 256 columns;
  the quotient by 4096.
-/
import proofs.«128375_j39152921870872_2_alg».proof.Proof.Gen.ReferenceIdeal.Read
import proofs.«128375_j39152921870872_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The arrays of shape [8, 4096, 256] at the ideal values. -/
abbrev Arr : Type := (⟨S8x4096x256, .f32⟩ : BufTy).Contents (Elt Ideal)

/-- The sum of squares of row (b, n), read at any index with these two coordinates. -/
theorem v1_at (x : Arr) (b : Fin 8) (n : Fin 4096) (i : S8x4096.Idx)
    (h0 : (i 0).val = b.val) (h1 : (i 1).val = n.val) :
    val_main_v1 (F := Ideal) x i = ∑ k : Fin 256, x (ix3 b n k) * x (ix3 b n k) := by
  rw [val_main_v1_apply, val_main_cst_apply, Ideal.ofBits_def, Ideal.ofBits_zero_f32, zero_add]
  refine Finset.sum_congr rfl fun k _ => ?_
  have e : idx_main_v1 i k = ix3 b n k := funext fun a => Fin.ext (by
    match a with
    | ⟨0, _⟩ => exact h0
    | ⟨1, _⟩ => exact h1
    | ⟨2, _⟩ => rfl)
  rw [val_main_v0_apply, Ideal.mulf_def, e]

/-- The clamped norm of row (b, n) of the first argument. -/
theorem v5_at (x : Arr) (b : Fin 8) (n : Fin 4096) (i : S8x4096x1.Idx)
    (h0 : (i 0).val = b.val) (h1 : (i 1).val = n.val) :
    val_main_v5 (F := Ideal) x i = Attn.rowNorm (Attn.rowOf x b n) := by
  rw [val_main_v5_apply, val_main_v3_apply, val_main_v2_apply, val_main_v4_apply, val_main_cst_0_apply,
    v1_at x b n _ h0 h1]
  rfl

/-- The normalised first argument at (b, n, c). -/
theorem v7_at (x : Arr) (b : Fin 8) (n : Fin 4096) (c : Fin 256) :
    val_main_v7 (F := Ideal) x (ix3 b n c) = Attn.unit (Attn.rowOf x b n) c := by
  rw [val_main_v7_apply, val_main_v6_apply, v5_at x b n _ rfl rfl]
  rfl

/-- The sum of squares of row (b, n) of the second argument. -/
theorem v9_at (x : Arr) (b : Fin 8) (n : Fin 4096) (i : S8x4096.Idx)
    (h0 : (i 0).val = b.val) (h1 : (i 1).val = n.val) :
    val_main_v9 (F := Ideal) x i = ∑ k : Fin 256, x (ix3 b n k) * x (ix3 b n k) := by
  rw [val_main_v9_apply, val_main_cst_1_apply, Ideal.ofBits_def, Ideal.ofBits_zero_f32, zero_add]
  refine Finset.sum_congr rfl fun k _ => ?_
  have e : idx_main_v9 i k = ix3 b n k := funext fun a => Fin.ext (by
    match a with
    | ⟨0, _⟩ => exact h0
    | ⟨1, _⟩ => exact h1
    | ⟨2, _⟩ => rfl)
  rw [val_main_v8_apply, Ideal.mulf_def, e]

/-- The clamped norm of row (b, n) of the second argument. -/
theorem v13_at (x : Arr) (b : Fin 8) (n : Fin 4096) (i : S8x4096x1.Idx)
    (h0 : (i 0).val = b.val) (h1 : (i 1).val = n.val) :
    val_main_v13 (F := Ideal) x i = Attn.rowNorm (Attn.rowOf x b n) := by
  rw [val_main_v13_apply, val_main_v11_apply, val_main_v10_apply, val_main_v12_apply, val_main_cst_2_apply,
    v9_at x b n _ h0 h1]
  rfl

/-- The normalised second argument at (b, n, c). -/
theorem v15_at (x : Arr) (b : Fin 8) (n : Fin 4096) (c : Fin 256) :
    val_main_v15 (F := Ideal) x (ix3 b n c) = Attn.unit (Attn.rowOf x b n) c := by
  rw [val_main_v15_apply, val_main_v14_apply, v13_at x b n _ rfl rfl]
  rfl

/-- The key/value summary at (b, c, d). -/
theorem v16_at (x1 x2 : Arr) (b : Fin 8) (c d : Fin 256) :
    val_main_v16 (F := Ideal) x1 x2 (ix3 b c d) = Attn.kv x1 x2 b c d := by
  rw [val_main_v16_apply]
  unfold Attn.kv
  refine Finset.sum_congr rfl fun j _ => ?_
  have el : lidx_main_v16 (ix3 b c d) j = ix3 b j c := funext fun a => Fin.ext (by
    match a with
    | ⟨0, _⟩ => rfl
    | ⟨1, _⟩ => rfl
    | ⟨2, _⟩ => rfl)
  have er : ridx_main_v16 (ix3 b c d) j = ix3 b j d := funext fun a => Fin.ext (by
    match a with
    | ⟨0, _⟩ => rfl
    | ⟨1, _⟩ => rfl
    | ⟨2, _⟩ => rfl)
  rw [el, er, v15_at]

/-- The key/value summary is the specification's array. -/
theorem v16_eq (x1 x2 : Arr) : val_main_v16 (F := Ideal) x1 x2 = Attn.kvArr x1 x2 := by
  funext i
  obtain ⟨b, c, d, rfl⟩ : ∃ (b : Fin 8) (c d : Fin 256), i = ix3 b c d := ⟨i 0, i 1, i 2, eq_ix3 i⟩
  rw [v16_at]
  rfl

/-- The unscaled context at (b, n, d). -/
theorem v17_at (x0 x1 x2 : Arr) (b : Fin 8) (n : Fin 4096) (d : Fin 256) :
    val_main_v17 (F := Ideal) x0 x1 x2 (ix3 b n d) = Attn.ctx x0 (Attn.kvArr x1 x2) b n d := by
  rw [val_main_v17_apply, v16_eq]
  unfold Attn.ctx
  refine Finset.sum_congr rfl fun c _ => ?_
  have el : lidx_main_v17 (ix3 b n d) c = ix3 b n c := funext fun a => Fin.ext (by
    match a with
    | ⟨0, _⟩ => rfl
    | ⟨1, _⟩ => rfl
    | ⟨2, _⟩ => rfl)
  have er : ridx_main_v17 (ix3 b n d) c = ix3 b c d := funext fun a => Fin.ext (by
    match a with
    | ⟨0, _⟩ => rfl
    | ⟨1, _⟩ => rfl
    | ⟨2, _⟩ => rfl)
  rw [el, er, v7_at]

/-- The reference's result is the context divided by 4096. -/
theorem ref_eq (x0 x1 x2 : (⟨Cert.ReferenceIdeal.S8x4096x256, .f32⟩ : BufTy).Contents (Elt Ideal)) :
    Cert.ReferenceIdeal.Read.val_main_v19 (F := Ideal) x0 x1 x2 = Cert.Attn.outDiv x0 (Cert.Attn.kvArr x1 x2) := by
  funext i
  obtain ⟨b, n, d, rfl⟩ : ∃ (b : Fin 8) (n : Fin 4096) (d : Fin 256), i = ix3 b n d := ⟨i 0, i 1, i 2, eq_ix3 i⟩
  rw [val_main_v19_apply, val_main_v18_apply, val_main_cst_3_apply, v17_at]
  rfl

end Cert.ReferenceIdeal.RefValue

end
-- ==== Proof.KI.R0Shared.lean ====
/-
  The first kernel region (the key/value summary kernel), what its two cases share.  The grid is 8 × 2: point
  t = 2·b + h handles half h of batch b.  At h = 0 the body overwrites its 256×256 accumulator with the half's partial
  product; at h = 1 it adds the partial product to the accumulator and stores the accumulator into the output block of
  batch b.  Here: the windows' blocks, the three branch conditions in closed form over the grid, where the output
  window is idle, the staging and accumulator buffers, and the region's resting invariant spelt out.
-/
import proofs.«128375_j39152921870872_2_alg».proof.Proof.Gen.KernelIdeal.Launch
import proofs.«128375_j39152921870872_2_alg».proof.Proof.Gen.KernelIdeal.Skeleton
import proofs.«128375_j39152921870872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The keys' staging buffer holds the point's block of keys. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The values' staging buffer holds the point's block of values. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The branch conditions, from the grid coordinates -/

/-- "This is the first half of the batch" (h = 0), as the body computes it. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is not the first half" (h ≠ 0). -/
abbrev cond0_1 (i : grid0.Coords) : Prop := (Scalar.cmpi .ne (Scalar.extui (Scalar.cmpi .ne (BitVec.ofNat 32 (i 1).val) 0#32)) 0#32) = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- "This is the last half" (h = 1). -/
abbrev cond0_2 (i : grid0.Coords) : Prop := k0_cond3 i = 1#1
/-- It holds at the odd points. -/
theorem hcond0_2 : ∀ t : Fin cfg0.N, cond0_2 (grid0.coords t) ↔ t.val % 2 = 1 :=
  (by decide +kernel : ∀ t : Fin grid0.N, cond0_2 (grid0.coords t) ↔ t.val % 2 = 1)

/-- At an even point: the first branch only. -/
theorem caseA (t : Fin cfg0.N) (h : t.val % 2 = 0) :
    cond0_0 (grid0.coords t) ∧ ¬cond0_1 (grid0.coords t) ∧ ¬cond0_2 (grid0.coords t) :=
  ⟨(hcond0_0 t).mpr h, fun h1 => by have := (hcond0_1 t).mp h1; omega, fun h2 => by have := (hcond0_2 t).mp h2; omega⟩

/-- At an odd point: the second and the third branch. -/
theorem caseB (t : Fin cfg0.N) (h : ¬t.val % 2 = 0) :
    ¬cond0_0 (grid0.coords t) ∧ cond0_1 (grid0.coords t) ∧ cond0_2 (grid0.coords t) :=
  ⟨fun h0 => h ((hcond0_0 t).mp h0), (hcond0_1 t).mpr (by omega), (hcond0_2 t).mpr (by omega)⟩

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At an even point nothing is stored into the output block: the window is idle, -/
theorem idleAt0_2_A : ∀ t : Fin cfg0.N, cond0_0 (grid0.coords t) → ¬cond0_1 (grid0.coords t) → ¬cond0_2 (grid0.coords t) → cfg0.idle 2 (grid0.coords t) = true := by decide +kernel
/-- and the block is not written back there. -/
theorem noFlush0_2_A : ∀ t : Fin cfg0.N, cond0_0 (grid0.coords t) → ¬cond0_1 (grid0.coords t) → ¬cond0_2 (grid0.coords t) → (cfg0.win 2).flush t = false := by decide +kernel
/-- At an odd point the output block is stored. -/
theorem liveAt0_2_B : ∀ t : Fin cfg0.N, ¬cond0_0 (grid0.coords t) → cond0_1 (grid0.coords t) → cond0_2 (grid0.coords t) → cfg0.idle 2 (grid0.coords t) = false := by decide +kernel

/-! ## The buffers the body is called with -/

/-- One staging buffer of the output window, through which its contents are stated. -/
abbrev VO0_2 : View sig .tc .vmem S1x256x256 .bf16 := (Memref.whole cc0_stg2_0 : Memref sig .tc .vmem S1x256x256 .bf16).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x256 .f32 := Memref.whole cc0_scratch0
abbrev VS0_0 : View sig .tc .vmem S256x256 .f32 := scM0_0.view

/-- The scoped buffers of the core that this region neither stages nor uses (the other region's staging buffers), each
    whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant spelt out: the accumulator at some contents, the other scoped buffers, the generator
    register at some state. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA others; rw [scopedRest0_eq]; simp only [scM0_0, owns_whole]; try rfl

end Cert.KernelIdeal.Hand

end
-- ==== Proof.KI.R0RunA.lean ====
/-
  The summary kernel's body at a point of the first half of a batch (h = 0): it reads the block of keys and the block
  of values and overwrites the accumulator with their partial product; the output block is left untouched.  The
  pieces the accumulator ends with are found by running the body.
-/
import proofs.«128375_j39152921870872_2_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs' at `x0`, `x1`, the output's at `xi2` (handed back untouched), the accumulator at
    anything — the body runs to the continuation with the inputs and the output as they were and the accumulator with its
    pieces `LS0` written. -/
noncomputable def kernelRun0_A (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) :
    Σ' (L2 : List (View.Piece (Elt F) S1x256x256 .bf16)), { LS0 : List (View.Piece (Elt F) S256x256 .f32) //
      ∀ (xi2 : Vec F S1x256x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R0RunB.lean ====
/-
  The summary kernel's body at a point of the second half of a batch (h = 1): it adds the half's partial product to
  the accumulator and stores the accumulator into the output block.  The pieces the output block and the accumulator
  end with are found by running the body.
-/
import proofs.«128375_j39152921870872_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs' at `x0`, `x1`, the output's at anything, the accumulator at what the point before
    left (`xs0`) — the body runs to the continuation with the inputs as they were, the output with its pieces `L2` written
    and the accumulator with its pieces `LS0` written. -/
noncomputable def kernelRun0_B (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) :
    Σ' (L2 : List (View.Piece (Elt F) S1x256x256 .bf16)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Region0.lean ====
/-
  The first kernel region (the key/value summary kernel) at any float instance: what the output block and the
  accumulator hold after each grid point, by recursion on the point — an even point t = 2·b overwrites the accumulator
  with its half's partial product and leaves the output block alone; the odd point after it adds its half's partial
  product to what the even point left and stores the sum into the output block —, the invariant that carries the
  accumulator's contents from each point to the next, the region's proof data and the body's triple at a generic point.
-/
import proofs.«128375_j39152921870872_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- An even point stores nothing into the output block: a placeholder that nothing consults (the window is idle and
    not written back at these points). -/
def out0_A_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) : Vec F S1x256x256 .bf16 :=
  VO0_2.read (Elt F) (VO0_2.writes (Elt F) VO0_2.junk (kernelRun0_A c i arg2 harg2 arg3 harg3 arg4 harg4 arg5 harg5 hc0 hc1 hc2 x0 x1).1)

/-- An even point's pieces cover the accumulator. -/
theorem scover0_A_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) (y : S256x256.Idx) :
    ∃ pc ∈ (kernelRun0_A c i arg2 harg2 arg3 harg3 arg4 harg4 arg5 harg5 hc0 hc1 hc2 x0 x1).2.1, y ∈ pc.1.set :=
  View.cover_of_tiledL (kernelRun0_A c i arg2 harg2 arg3 harg3 arg4 harg4 arg5 harg5 hc0 hc1 hc2 x0 x1).2.1 S256x256.size (by sl_kernel_rfl) y

/-- What an even point leaves in the accumulator. -/
def sout0_A_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) : Vec F S256x256 .f32 :=
  VS0_0.read (Elt F) (VS0_0.writes (Elt F) VS0_0.junk (kernelRun0_A c i arg2 harg2 arg3 harg3 arg4 harg4 arg5 harg5 hc0 hc1 hc2 x0 x1).2.1)

/-- An odd point's pieces cover the output block. -/
theorem cover0_B_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) (y : S1x256x256.Idx) :
    ∃ pc ∈ (kernelRun0_B c i arg2 harg2 arg3 harg3 arg4 harg4 arg5 harg5 hc0 hc1 hc2 x0 x1 xs0).1, y ∈ pc.1.set :=
  View.cover_of_tiledL (kernelRun0_B c i arg2 harg2 arg3 harg3 arg4 harg4 arg5 harg5 hc0 hc1 hc2 x0 x1 xs0).1 S1x256x256.size (by sl_kernel_rfl) y

/-- What an odd point leaves in the output block. -/
def out0_B_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : Vec F S1x256x256 .bf16 :=
  VO0_2.read (Elt F) (VO0_2.writes (Elt F) VO0_2.junk (kernelRun0_B c i arg2 harg2 arg3 harg3 arg4 harg4 arg5 harg5 hc0 hc1 hc2 x0 x1 xs0).1)

/-- An odd point's pieces cover the accumulator. -/
theorem scover0_B_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) (y : S256x256.Idx) :
    ∃ pc ∈ (kernelRun0_B c i arg2 harg2 arg3 harg3 arg4 harg4 arg5 harg5 hc0 hc1 hc2 x0 x1 xs0).2.1, y ∈ pc.1.set :=
  View.cover_of_tiledL (kernelRun0_B c i arg2 harg2 arg3 harg3 arg4 harg4 arg5 harg5 hc0 hc1 hc2 x0 x1 xs0).2.1 S256x256.size (by sl_kernel_rfl) y

/-- What an odd point leaves in the accumulator. -/
def sout0_B_0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : Vec F S256x256 .f32 :=
  VS0_0.read (Elt F) (VS0_0.writes (Elt F) VS0_0.junk (kernelRun0_B c i arg2 harg2 arg3 harg3 arg4 harg4 arg5 harg5 hc0 hc1 hc2 x0 x1 xs0).2.1)

section
variable (V : (c : Dev nD) → (b : Ref sig .tc) → Buf (Elt F) ((c : Thread nD τ).loc b))

/-! ## What the output block and the accumulator hold after each point -/

/-- After an even point `t`: the output block's placeholder, and the accumulator at the half's partial product. -/
def ptA (c : Dev nD) (t : Fin cfg0.N) (h : t.val % 2 = 0) : Vec F S1x256x256 .bf16 × Vec F S256x256 .f32 :=
  (out0_A_2 c (grid0.coords t) (ms0_0 t) (hs0_0 t) (ms0_1 t) (hs0_1 t) (ms0_2 t) (hs0_2 t) scM0_0 (Memref.isWhole_whole _) (caseA t h).1 (caseA t h).2.1 (caseA t h).2.2 (iblk0 V c 0 t) (iblk0 V c 1 t),
   sout0_A_0 c (grid0.coords t) (ms0_0 t) (hs0_0 t) (ms0_1 t) (hs0_1 t) (ms0_2 t) (hs0_2 t) scM0_0 (Memref.isWhole_whole _) (caseA t h).1 (caseA t h).2.1 (caseA t h).2.2 (iblk0 V c 0 t) (iblk0 V c 1 t))

/-- After an odd point `t`, from what the point before left in the accumulator. -/
def ptB (c : Dev nD) (t : Fin cfg0.N) (h : ¬t.val % 2 = 0) (xs : Vec F S256x256 .f32) : Vec F S1x256x256 .bf16 × Vec F S256x256 .f32 :=
  (out0_B_2 c (grid0.coords t) (ms0_0 t) (hs0_0 t) (ms0_1 t) (hs0_1 t) (ms0_2 t) (hs0_2 t) scM0_0 (Memref.isWhole_whole _) (caseB t h).1 (caseB t h).2.1 (caseB t h).2.2 (iblk0 V c 0 t) (iblk0 V c 1 t) xs,
   sout0_B_0 c (grid0.coords t) (ms0_0 t) (hs0_0 t) (ms0_1 t) (hs0_1 t) (ms0_2 t) (hs0_2 t) scM0_0 (Memref.isWhole_whole _) (caseB t h).1 (caseB t h).2.1 (caseB t h).2.2 (iblk0 V c 0 t) (iblk0 V c 1 t) xs)

/-- The accumulation, by recursion on the point: (the output block's staging buffer, the accumulator) after point `n`. -/
def outsAt0 (c : Dev nD) : (n : ℕ) → n < cfg0.N → Vec F S1x256x256 .bf16 × Vec F S256x256 .f32
  | 0, hn => ptA V c ⟨0, hn⟩ (Nat.zero_mod _)
  | n + 1, hn =>
    if h0 : (n + 1) % 2 = 0 then ptA V c ⟨n + 1, hn⟩ h0
    else ptB V c ⟨n + 1, hn⟩ h0 (outsAt0 c n (Nat.lt_of_succ_lt hn)).2

theorem outsAt0_A (c : Dev nD) (t : Fin cfg0.N) (h0 : t.val % 2 = 0) :
    outsAt0 V c t.val t.isLt = ptA V c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 V c t.val t.isLt = ptB V c t h0 (outsAt0 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans rfl

/-! ## The invariant that carries the accumulator -/

/-- Before position `n`: at the start the region's resting invariant (the accumulator at anything); afterwards the
    accumulator at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others (F := F) c) ∗ (∃ r, prngReg c r)) := by
  cases n with
  | zero => exact absurd rfl hz
  | succ n => rfl

/-! ## The region's proof data -/

/-- On core `c`: the arrays as the region finds them; after the body at point `t` each input's buffer at its block and
    the output's at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the point says which case it is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · rw [Dat.leavesExact_idle (dat0 V c) 2 t (idleAt0_2_A t (caseA t h0).1 (caseA t h0).2.1 (caseA t h0).2.2) (noFlush0_2_A t (caseA t h0).1 (caseA t h0).2.1 (caseA t h0).2.2)]
    rw [outsAt0_A V c t h0]
    unfold ptA sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ (caseA t h0).1 (caseA t h0).2.1 (caseA t h0).2.2 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ (caseA t h0).1 (caseA t h0).2.1 (caseA t h0).2.2 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _)
          iexact Hoth
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_B t (caseB t h0).1 (caseB t h0).2.1 (caseB t h0).2.2], after0_2]
    rw [outsAt0_B V c t h0]
    unfold ptB out0_B_2 sout0_B_0; (try dsimp only)
    have hz : t.val ≠ 0 := fun e => h0 (by rw [e])
    rw [PhiS_castSucc V c t, PhiS_pos V c _ _ hz]
    iintro ⟨⟨⟨HS0, Hoth⟩, Hg⟩, Ho, ⟨%d0, H0⟩, ⟨%d1, H1⟩, ⟨%d2, H2⟩⟩
    iapply ((kernelRun0_B c (grid0.coords t) _ _ _ _ _ _ _ _ (caseB t h0).1 (caseB t h0).2.1 (caseB t h0).2.2 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _)

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point the invariant gives the resting invariant back: the accumulator's named contents are forgotten. -/
theorem Phi_out (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out V c _ (by rw [Fin.val_last]; have : cfg0.N = 16 := N_0; omega)

end

end Cert.KernelIdeal.Hand

end
-- ==== Proof.KI.Region1.lean ====
/-
  The second kernel region (the context kernel) at any float instance: one grid point reads a block of 2048 query
  rows and the 256×256 summary of the point's batch, and writes the block of 2048 context rows — a single store
  covering the whole output block.  Stated at an arbitrary valuation `V` of the buffers at the region's entry:
  what each window's staging buffer holds after the body at each point, and the body's triple at a generic point.
-/
import proofs.«128375_j39152921870872_2_alg».proof.Proof.Gen.KernelIdeal.Launch
import proofs.«128375_j39152921870872_2_alg».proof.Proof.Gen.KernelIdeal.Skeleton
import proofs.«128375_j39152921870872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's block, whether fetched at the point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summary window's staging buffer holds the batch's block at both points of the batch: at the second it is not
    fetched again and the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of 2048 rows, and the whole summary block, as rectangles. -/
abbrev r1_a : Rect S1x2048x256 := Rect.unit (s := S1x2048x256) ![0, 0, 0] S1x2048x256.size inb_S1x2048x256_S1x2048x256_0_0_0
abbrev r1_b : Rect S1x256x256 := Rect.unit (s := S1x256x256) ![0, 0, 0] S1x256x256.size inb_S1x256x256_S1x256x256_0_0_0

/-- The output block after the body: its one store, of the context rows computed from the two input blocks. -/
def out1_2 (x0 : Vec F S1x2048x256 .f32) (x1 : Vec F S1x256x256 .bf16) : Vec F S1x2048x256 .f32 :=
  View.canon [⟨r1_a, k1_pay1 (View.ld x0 r1_a) (View.ld x1 r1_b)⟩]

/-- The one store covers the output block. -/
theorem cover1_2 (p0 : Vec F S1x2048x256 .f32) (y : S1x2048x256.Idx) :
    ∃ pc ∈ ([⟨r1_a, p0⟩] : List (View.Piece (Elt F) S1x2048x256 .f32)), y ∈ pc.1.set :=
  View.cover_of_tiled [⟨r1_a, p0⟩] S1x2048x256.size (by rfl) y

set_option maxHeartbeats 1000000 in
/-- The body on whole staging buffers, the inputs' at contents `x0`, `x1` and the output's at anything, runs to the
    continuation with the inputs' as they were and the output's at `out1_2 x0 x1`. -/
theorem sound_kernel1 (c : Dev nD) (E : Set ℕ) (i : grid1.Coords) (arg2 : Memref sig .tc .vmem S1x2048x256 .f32) (harg2 : arg2.IsWhole)
    (arg3 : Memref sig .tc .vmem S1x256x256 .bf16) (harg3 : arg3.IsWhole) (arg4 : Memref sig .tc .vmem S1x2048x256 .f32) (harg4 : arg4.IsWhole)
    (x0 : Vec F S1x2048x256 .f32) (x1 : Vec F S1x256x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__ctx_kernel i arg2 harg2 arg3 harg3 arg4 harg4) K := by
  simp only [cc1__ctx_kernel_eq_skeleton]; unfold cc1__ctx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`: the arrays as the region finds them; after the body at point `t` each
    input's buffer at its block and the output's at `out1_2` of the two input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The whole program as a run at any float instance: from the launch memory the first kernel region (the key/value
  summary), then the second kernel region (the context), then the return; there is no operation between them.
  The buffer contents at each boundary are a fold from the launch memory: a region leaves each of its arrays at
  what its write-backs leave and every other buffer as it was entered.  Each region is a segment over the thread
  state "every unscoped buffer at the boundary's contents, the generator register at some state, nothing owed";
  the run of the two segments terminates on every core, and the final memory holds the result array at what the
  second region leaves and each argument array as launched.
-/
import proofs.«128375_j39152921870872_2_alg».proof.Proof.Gen.KernelIdeal.Launch
import proofs.«128375_j39152921870872_2_alg».proof.Proof.Gen.KernelIdeal.Skeleton
import proofs.«128375_j39152921870872_2_alg».proof.Proof.Gen.KernelIdeal.Points
import proofs.«128375_j39152921870872_2_alg».proof.Proof.KI.Region0
import proofs.«128375_j39152921870872_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At the first region's exit: its arrays at what the pipeline leaves (the inputs as entered, the output's
    write-backs folded), every other buffer as entered.  The second region is entered here. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### What each region finds in the arrays it reads -/

/-- The first region finds the keys and the values as launched. -/
theorem V0_main_arg1 (c : Dev nD) : V0 m c main_arg1 = m ((c : Thread nD τ).loc main_arg1) := rfl
theorem V0_main_arg2 (c : Dev nD) : V0 m c main_arg2 = m ((c : Thread nD τ).loc main_arg2) := rfl
/-- The second region finds the queries as launched: the first region has no window on them. -/
theorem V2_main_arg0 (c : Dev nD) : V2 m c main_arg0 = m ((c : Thread nD τ).loc main_arg0) :=
  W2_of_ne m c main_arg0 (by decide)
/-- The second region finds the summary at what the first region's write-backs leave. -/
theorem V2_main_v0 (c : Dev nD) : V2 m c main_v0 = (dat0 (V0 m) c).arrAt 2 cfg0.N :=
  W2_arr m c 2

/-! ### The arguments end as launched: a region reads an argument through an input window or has no window on it -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := (W4_arr m c 0).trans (((dat1 (V2 m) c).arrAt_in 0 rfl _).trans (A_eq1 (V2 m) c 0))
    _ = W0 m c (Proc.devRef .tc main_arg0) := W2_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 0).trans (((dat0 (V0 m) c).arrAt_in 0 rfl _).trans (A_eq0 (V0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (V0 m) c).arrAt_in 1 rfl _).trans (A_eq0 (V0 m) c 1))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left at the
    contents the second region is entered from.  Its arrays are split out of the unscoped buffers and put back at
    the exit contents; the generator register and the scoped buffers no window stages go into the class invariant,
    from which the record's own invariant at the first point follows, and come back out of the record's invariant
    at the last point; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first region's exit contents,
    left at the contents the launch reads at the end.  Its invariant is the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per kernel call. -/
abbrev segs : List (Pipeline.Seg (pcfgs (F := F)) adm (pdats m) () defs₀ 𝒱₀ L lv) :=
  [ .region (reg0 m), .region (reg1 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state the result array holds what the second region's
    write-backs leave — the second region entered at the first region's exit contents — and each argument array is
    as launched. -/
theorem run : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

/-- THE FRAME: the same run, keeping only that each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.KernelIdeal.Hand

end
-- ==== Proof.KI.R0Pieces.lean ====
/-
  What the summary kernel's two cases leave, as values: an even point leaves in the accumulator the partial product
  of its blocks; an odd point leaves there the sum of the previous contents and its own partial product, and in the
  output block that sum.  Each store covers its whole buffer and each load reads a whole buffer, so the pieces found by
  running the body read back as the stored payloads of the loaded blocks themselves.
-/
import proofs.«128375_j39152921870872_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- An even point leaves the partial product of its two blocks in the accumulator. -/
theorem sout0_A_eq (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i)
    (x0 : Vec F S1x2048x256 .f32) (x1 : Vec F S1x2048x256 .f32) : sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero (S := S256x256) zero_offsets2]
  simp only [View.readAt_eq_ld, harg2.read_unread, harg3.read_unread, View.ld_unit_zero (S := S1x2048x256) zero_offsets3]

/-- An odd point leaves in the accumulator what it held plus the partial product of the point's blocks. -/
theorem sout0_B_eq (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : sout0_B_0 c i arg2 harg2 arg3 harg3 arg4 harg4 arg5 harg5 hc0 hc1 hc2 x0 x1 xs0 = k0_pay3 x0 x1 xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero (S := S256x256) zero_offsets2]
  simp only [View.readAt_eq_ld, harg2.read_unread, harg3.read_unread, harg5.read_unread, View.ld_unit_zero (S := S1x2048x256) zero_offsets3,
    View.ld_unit_zero (S := S256x256) zero_offsets2]

/-- An odd point stores that sum into the output block. -/
theorem out0_B_eq (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i)
    (x0 : Vec F S1x2048x256 .f32) (x1 : Vec F S1x2048x256 .f32) (xs0 : Vec F S256x256 .f32) : out0_B_2 c i arg2 harg2 arg3 harg3 arg4 harg4 arg5 harg5 hc0 hc1 hc2 x0 x1 xs0 = k0_pay4 (k0_pay3 x0 x1 xs0) := by
  unfold out0_B_2
  rw [View.read_writes_eq_canon _ _ _ (cover0_B_2 c i arg2 harg2 arg3 harg3 arg4 harg4 arg5 harg5 hc0 hc1 hc2 x0 x1 xs0)]
  unfold kernelRun0_B
  dsimp only
  sl_unfold_words
  rw [View.canon_unit_zero (S := S1x256x256) zero_offsets3]
  rw [View.readCov_unit_zero (S := S256x256) arg5.view zero_offsets2]
  simp only [View.readAt_eq_ld, harg2.read_unread, harg3.read_unread, harg5.read_unread, View.ld_unit_zero (S := S1x2048x256) zero_offsets3,
    View.ld_unit_zero (S := S256x256) zero_offsets2]

section
variable (V : (c : Dev nD) → (b : Ref sig .tc) → Buf (Elt F) ((c : Thread nD τ).loc b))

/-- After an even point the accumulator holds the partial product of the point's blocks of keys and values. -/
theorem scratch_even (c : Dev nD) (t : Fin cfg0.N) (h : t.val % 2 = 0) :
    (outsAt0 V c t.val t.isLt).2 = k0_pay2 (iblk0 V c 0 t) (iblk0 V c 1 t) := by
  rw [outsAt0_A V c t h]
  unfold ptA
  dsimp only
  exact sout0_A_eq c (grid0.coords t) (ms0_0 t) (hs0_0 t) (ms0_1 t) (hs0_1 t) (ms0_2 t) (hs0_2 t) scM0_0 (Memref.isWhole_whole _) (caseA t h).1 (caseA t h).2.1 (caseA t h).2.2 (iblk0 V c 0 t) (iblk0 V c 1 t)

/-- After an odd point the output block holds what the point before left in the accumulator plus the point's own
    partial product. -/
theorem out_odd (c : Dev nD) (t : Fin cfg0.N) (h : t.val % 2 = 1) :
    (outsAt0 V c t.val t.isLt).1 = k0_pay4 (k0_pay3 (iblk0 V c 0 t) (iblk0 V c 1 t) (outsAt0 V c (t.val - 1) (Nat.lt_of_le_of_lt (Nat.sub_le _ _) t.isLt)).2) := by
  have h0 : ¬t.val % 2 = 0 := by omega
  rw [outsAt0_B V c t h0]
  unfold ptB
  dsimp only
  exact out0_B_eq c (grid0.coords t) (ms0_0 t) (hs0_0 t) (ms0_1 t) (hs0_1 t) (ms0_2 t) (hs0_2 t) scM0_0 (Memref.isWhole_whole _) (caseB t h0).1 (caseB t h0).2.1 (caseB t h0).2.2 (iblk0 V c 0 t) (iblk0 V c 1 t) (outsAt0 V c (t.val - 1) (Nat.lt_of_le_of_lt (Nat.sub_le _ _) t.isLt)).2

end

end Cert.KernelIdeal.Hand

end
-- ==== Proof.LibKeepdims.lean ====
/-
  Two layout operations read at an index given by coordinates: the "keepdims" column forms.

  A reduction along the lanes of an [a, b] array that keeps the reduced axis as a unit axis is, in vector
  operations, a reduction to [a], a shape cast of the [a] result to the column [a, 1], and a broadcast of the
  column [a, 1] back over the lanes to [a, b].  The cast does not move data: in row-major order entry (i, 0) of
  the column is entry i of the vector.  The broadcast repeats a row's one entry along the row: entry (p, c) of
  the result is entry (p, 0) of the column.  Both are stated for any element type and any extents.
-/
import Idealize.ShloMosaic.Lib.ValueIdx
import Idealize.ShloMosaic.Lib.Pipeline.Value

namespace Cert.Lib.Keepdims

open Idealize.ShloMosaic Idealize.ShloMosaic.ValueIdx

variable {α : Type}

/-- An \`[a]\` array cast to the column \`[a, 1]\` reads, at \`(i, u)\`, the operand at \`i\`, whatever the unit
    coordinate \`u\`: the row-major position of \`(i, u)\` in \`[a, 1]\` is \`i · 1 + 0 = i\`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column \`[a, 1]\` broadcast over the lanes to \`[a, b]\` reads, at \`(p, c)\`, the column's one entry of row \`p\`:
    the unit axis is read at \`0\`, the row axis at \`p\` (also when \`a = 1\`, where \`p = 0\`). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KI.Pay.lean ====
/-
  The two kernels' payloads read at one index, on the extended reals.

  A block of 2048 rows of 256 entries is normalised row by row: a row is divided by the square root of the sum of
  its squares, clamped below by a small constant.  The first kernel contracts the normalised keys with the values
  over the 2048 rows, entry (c, d) being the sum over rows j of k̂[j, c] · v[j, d]; it either stores that matrix,
  or adds it to the matrix already held, and finally copies the held matrix out under a leading unit axis.  The
  second kernel contracts a normalised query row with a 256 × 256 summary over its 256 entries and scales the
  result by 2⁻¹².  A change of float format is the identity on the extended reals, and a matrix product into the
  zero matrix is the bare sum.
-/
import proofs.«128375_j39152921870872_2_alg».proof.Proof.Gen.KernelIdeal.Skeleton
import proofs.«128375_j39152921870872_2_alg».proof.Proof.Spec
import proofs.«128375_j39152921870872_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.Attn Cert.Lib.Keepdims

/-! ## A block's rows divided by their clamped norms -/

/-- The sum of squares along the lanes, at row \`r\`. -/
theorem sumsq_apply (v : FVec Ideal S2048x256 .f32) (hr : S2048x256.Reduces [1] S2048) (hφ : FKind.Formats .f32)
    (hacc : (0x00000000#32 : BitVec 32) = 0x00000000#32) (r : Fin 2048) :
    multiReduction .add [1] S2048 (mulf v v) 0x00000000#32 hr hφ hacc (ix1 r)
      = ∑ k : Fin 256, v (ix2 r k) * v (ix2 r k) := by
  refine (Ideal.multiReduction_add_single (mulf v v) 0x00000000#32 hr hφ hacc (ix1 r)).trans ?_
  refine Finset.sum_congr rfl fun k _ => ?_
  have e : hr.lift (ix1 r) k = ix2 r k := funext fun a => Fin.ext (by
    match a with
    | ⟨0, _⟩ => rfl
    | ⟨1, _⟩ => rfl)
  rw [e]
  rfl

/-- The clamped norm spread over the lanes, at \`(r, c)\`: the clamped norm of row \`r\`. -/
theorem norm_apply (v : FVec Ideal S2048x256 .f32) (hr : S2048x256.Reduces [1] S2048) (hφ : FKind.Formats .f32)
    (hacc : (0x00000000#32 : BitVec 32) = 0x00000000#32) (hc : S2048.ShapeCasts S2048x1)
    (hb : S2048x1.Broadcasts S2048x256) (r : Fin 2048) (c : Fin 256) :
    broadcastTo S2048x256
        (maximumf (sqrt (shapeCast S2048x1 (multiReduction .add [1] S2048 (mulf v v) 0x00000000#32 hr hφ hacc) hc))
          (broadcast S2048x1 (Scalar.ofBits (F := Ideal) .f32 0x2B8CBCCC#32))) hb (ix2 r c)
      = Attn.rowNorm fun k => v (ix2 r k) := by
  refine (broadcastTo_a1_ab_apply _ hb r c).trans ?_
  refine (maximumf_apply _ _ _).trans ?_
  unfold Attn.rowNorm
  refine congrArg₂ max ?_ rfl
  show Ideal.sqrt (shapeCast S2048x1 (multiReduction .add [1] S2048 (mulf v v) 0x00000000#32 hr hφ hacc) hc (ix2 r (0 : Fin 1))) = _
  refine congrArg Ideal.sqrt ?_
  refine (shapeCast_a_a1_apply _ hc r 0).trans ?_
  exact sumsq_apply v hr hφ hacc r

/-- The block with every row divided by its clamped norm, at \`(r, c)\`. -/
theorem unit_apply (v : FVec Ideal S2048x256 .f32) (hr : S2048x256.Reduces [1] S2048) (hφ : FKind.Formats .f32)
    (hacc : (0x00000000#32 : BitVec 32) = 0x00000000#32) (hc : S2048.ShapeCasts S2048x1)
    (hb : S2048x1.Broadcasts S2048x256) (r : Fin 2048) (c : Fin 256) :
    divf v (broadcastTo S2048x256
        (maximumf (sqrt (shapeCast S2048x1 (multiReduction .add [1] S2048 (mulf v v) 0x00000000#32 hr hφ hacc) hc))
          (broadcast S2048x1 (Scalar.ofBits (F := Ideal) .f32 0x2B8CBCCC#32))) hb) (ix2 r c)
      = Attn.unit (fun k => v (ix2 r k)) c := by
  refine (divf_apply _ _ _).trans ?_
  unfold Attn.unit
  exact congrArg (Ideal.div (v (ix2 r c))) (norm_apply v hr hφ hacc hc hb r c)

/-! ## The two matrix products into the zero matrix -/

/-- The key/value product's left operand is read at (contraction coordinate, first output coordinate) … -/
theorem kv_lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem kv_lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
/-- … and its right operand at (contraction coordinate, second output coordinate). -/
theorem kv_rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem kv_rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- The product contracting the 2048 rows of both operands, into the zero matrix, at \`(c, d)\`. -/
theorem kv_matmul_apply (L R : FVec Ideal S2048x256 .bf16) (c d : Fin 256) :
    matmul dot_S2048x256_S2048x256_S256x256_0_0_1_1_n_n none L R (constant (F := Ideal) S256x256 .f32 0x00000000#32) (ix2 c d)
      = ∑ j : Fin 2048, L (ix2 j c) * R (ix2 j d) := by
  refine (Ideal.matmul_constant_zero_apply dot_S2048x256_S2048x256_S256x256_0_0_1_1_n_n none L R (ix2 c d)).trans ?_
  rw [← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 c d)
      ((contrEquiv1 dot_S2048x256_S2048x256_S256x256_0_0_1_1_n_n 2048 rfl rfl).symm k) = ix2 k c :=
    funext fun a => Fin.ext (by
      match a with
      | ⟨0, _⟩ => exact (kv_lhs_0 _ _).trans hk
      | ⟨1, _⟩ => exact kv_lhs_1 _ _)
  have er : dot_S2048x256_S2048x256_S256x256_0_0_1_1_n_n.rhsIdx (ix2 c d)
      ((contrEquiv1 dot_S2048x256_S2048x256_S256x256_0_0_1_1_n_n 2048 rfl rfl).symm k) = ix2 k d :=
    funext fun a => Fin.ext (by
      match a with
      | ⟨0, _⟩ => exact (kv_rhs_0 _ _).trans hk
      | ⟨1, _⟩ => exact kv_rhs_1 _ _)
  rw [el, er]

/-- The plain product's left operand is read at (first output coordinate, contraction coordinate) … -/
theorem ctx_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem ctx_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- … and its right operand at (contraction coordinate, second output coordinate). -/
theorem ctx_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem ctx_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The plain product of a 2048 × 256 block with a 256 × 256 matrix, into the zero matrix, at \`(n, d)\`. -/
theorem ctx_matmul_apply (L : FVec Ideal S2048x256 .bf16) (R : FVec Ideal S256x256 .bf16) (n : Fin 2048) (d : Fin 256) :
    matmul dot_S2048x256_S256x256_S2048x256_1_0_0_1_n_n none L R (constant (F := Ideal) S2048x256 .f32 0x00000000#32) (ix2 n d)
      = ∑ c : Fin 256, L (ix2 n c) * R (ix2 c d) := by
  refine (Ideal.matmul_constant_zero_apply dot_S2048x256_S256x256_S2048x256_1_0_0_1_n_n none L R (ix2 n d)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 n d)
      ((contrEquiv1 dot_S2048x256_S256x256_S2048x256_1_0_0_1_n_n 256 rfl rfl).symm k) = ix2 n k :=
    funext fun a => Fin.ext (by
      match a with
      | ⟨0, _⟩ => exact ctx_lhs_0 _ _
      | ⟨1, _⟩ => exact (ctx_lhs_1 _ _).trans hk)
  have er : dot_S2048x256_S256x256_S2048x256_1_0_0_1_n_n.rhsIdx (ix2 n d)
      ((contrEquiv1 dot_S2048x256_S256x256_S2048x256_1_0_0_1_n_n 256 rfl rfl).symm k) = ix2 k d :=
    funext fun a => Fin.ext (by
      match a with
      | ⟨0, _⟩ => exact (ctx_rhs_0 _ _).trans hk
      | ⟨1, _⟩ => exact ctx_rhs_1 _ _)
  rw [el, er]

/-! ## The payloads -/

/-- The first kernel's partial summary at \`(c, d)\`: the sum over the block's rows of the normalised key entry times the value entry. -/
theorem pay1_apply (x0 x1 : Vec Ideal S1x2048x256 .f32) (c d : Fin 256) :
    k0_pay1 (F := Ideal) x0 x1 (ix2 c d) = ∑ j : Fin 2048, Attn.unit (fun k => x0 (ix3 (0 : Fin 1) j k)) c * x1 (ix3 (0 : Fin 1) j d) := by
  unfold k0_pay1
  refine (kv_matmul_apply _ _ c d).trans ?_
  refine Finset.sum_congr rfl fun j _ => ?_
  refine congrArg₂ (· * ·) ?_ ?_
  · refine (truncf_apply (φ := .f32) (ψ := .bf16) _ _ _).trans ?_
    refine (unit_apply _ _ _ rfl _ _ j c).trans ?_
    exact congrArg (fun row => Attn.unit row c) (funext fun k => shapeCast_1ab_ab_apply x0 _ j k)
  · refine (truncf_apply (φ := .f32) (ψ := .bf16) _ _ _).trans ?_
    exact shapeCast_1ab_ab_apply x1 _ j d

/-- Stored as it is, the partial summary is read back unchanged. -/
theorem pay2_apply (x0 x1 : Vec Ideal S1x2048x256 .f32) (c d : Fin 256) :
    k0_pay2 (F := Ideal) x0 x1 (ix2 c d) = ∑ j : Fin 2048, Attn.unit (fun k => x0 (ix3 (0 : Fin 1) j k)) c * x1 (ix3 (0 : Fin 1) j d) := by
  unfold k0_pay2
  refine (congrFun (shapeCast_self _ _) _).trans ?_
  exact pay1_apply x0 x1 c d

/-- Added to the matrix already held. -/
theorem pay3_apply (x0 x1 : Vec Ideal S1x2048x256 .f32) (acc : Vec Ideal S256x256 .f32) (c d : Fin 256) :
    k0_pay3 (F := Ideal) x0 x1 acc (ix2 c d) = acc (ix2 c d) + ∑ j : Fin 2048, Attn.unit (fun k => x0 (ix3 (0 : Fin 1) j k)) c * x1 (ix3 (0 : Fin 1) j d) := by
  unfold k0_pay3
  refine (congrFun (shapeCast_self _ _) _).trans ?_
  refine (addf_apply _ _ _).trans ?_
  exact congrArg (acc (ix2 c d) + ·) (pay1_apply x0 x1 c d)

/-- The held matrix copied out under a leading unit axis; the change of format is the identity. -/
theorem pay4_apply (acc : Vec Ideal S256x256 .f32) (c d : Fin 256) :
    k0_pay4 (F := Ideal) acc (ix3 (0 : Fin 1) c d) = acc (ix2 c d) := by
  unfold k0_pay4
  refine (shapeCast_ab_1ab_apply _ _ (0 : Fin 1) c d).trans ?_
  exact truncf_apply (φ := .f32) (ψ := .bf16) _ _ _

/-- The second kernel's output block at \`(0, n, d)\`: the normalised query row \`n\` against column \`d\` of the summary, scaled by 2⁻¹². -/
theorem k1_pay1_apply (x0 : Vec Ideal S1x2048x256 .f32) (w : Vec Ideal S1x256x256 .bf16) (n : Fin 2048) (d : Fin 256) :
    k1_pay1 (F := Ideal) x0 w (ix3 (0 : Fin 1) n d)
      = (∑ c : Fin 256, Attn.unit (fun k => x0 (ix3 (0 : Fin 1) n k)) c * w (ix3 (0 : Fin 1) c d)) * Ideal.ofBits .f32 0x39800000#32 := by
  unfold k1_pay1
  refine (shapeCast_ab_1ab_apply _ _ (0 : Fin 1) n d).trans ?_
  refine (mulf_apply _ _ _).trans ?_
  refine congrArg₂ (· * ·) ?_ rfl
  refine (ctx_matmul_apply _ _ n d).trans ?_
  refine Finset.sum_congr rfl fun c _ => ?_
  refine congrArg₂ (· * ·) ?_ ?_
  · refine (truncf_apply (φ := .f32) (ψ := .bf16) _ _ _).trans ?_
    refine (unit_apply _ _ _ rfl _ _ n c).trans ?_
    exact congrArg (fun row => Attn.unit row c) (funext fun k => shapeCast_1ab_ab_apply x0 _ n k)
  · exact shapeCast_1ab_ab_apply w _ c d

end Cert.KernelIdeal.Hand

end
-- ==== Proof.KI.Val0.lean ====
/-
  The first kernel region's whole output array on the extended reals.  The grid is 8 × 2, point t = 2·b + h.  The
  output block of batch b is written back at the odd point t = 2·b + 1 only, and what is written there is the
  accumulator: the partial summary of the first 2048 rows (stored at the even point before) plus the partial summary
  of the last 2048 rows.  A sum over 4096 rows is the sum of its two halves, so the array ends holding the key/value
  summary of the whole arrays.
-/
import proofs.«128375_j39152921870872_2_alg».proof.Proof.KI.Region0
import proofs.«128375_j39152921870872_2_alg».proof.Proof.KI.R0Pieces
import proofs.«128375_j39152921870872_2_alg».proof.Proof.KI.Pay
import proofs.«128375_j39152921870872_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block indices over the grid -/

/-- Point t reads block (t / 2, t % 2, 0) of the keys and of the values, and owns block (t / 2, 0, 0) of the output. -/
theorem idx0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

section
variable (V : (c : Dev nD) → (b : Ref sig .tc) → Buf (Elt Ideal) ((c : Thread nD τ).loc b))

/-- The keys' block at point t, at row j: row 2048·(t % 2) + j of batch t / 2. -/
theorem keys_at (c : Dev nD) (t : Fin cfg0.N) (b : Fin 8) (r : Fin 4096) (j : Fin 2048) (k : Fin 256)
    (hb : b.val = t.val / 2) (hr : r.val = 2048 * (t.val % 2) + j.val) :
    iblk0 V c 0 t (ix3 (0 : Fin 1) j k) = V c main_arg1 (ix3 b r k) := by
  obtain ⟨e0, e1, e2, -⟩ := idx0 t
  unfold iblk0
  rw [View.read_apply]
  show V c main_arg1 (((cfg0.win 0).blk t).view.emb (ix3 (0 : Fin 1) j k)) = V c main_arg1 (ix3 b r k)
  refine congrArg (V c main_arg1) (funext fun a => Fin.ext ?_)
  match a with
  | ⟨0, _⟩ => show win0_0.index t (0 : Fin 3) * 1 + 1 * 0 = b.val; omega
  | ⟨1, _⟩ => show win0_0.index t (1 : Fin 3) * 2048 + 1 * j.val = r.val; omega
  | ⟨2, _⟩ => show win0_0.index t (2 : Fin 3) * 256 + 1 * k.val = k.val; omega

/-- The values' block at point t, at row j: the same row of the values. -/
theorem vals_at (c : Dev nD) (t : Fin cfg0.N) (b : Fin 8) (r : Fin 4096) (j : Fin 2048) (k : Fin 256)
    (hb : b.val = t.val / 2) (hr : r.val = 2048 * (t.val % 2) + j.val) :
    iblk0 V c 1 t (ix3 (0 : Fin 1) j k) = V c main_arg2 (ix3 b r k) := by
  obtain ⟨-, -, -, e0, e1, e2, -⟩ := idx0 t
  unfold iblk0
  rw [View.read_apply]
  show V c main_arg2 (((cfg0.win 1).blk t).view.emb (ix3 (0 : Fin 1) j k)) = V c main_arg2 (ix3 b r k)
  refine congrArg (V c main_arg2) (funext fun a => Fin.ext ?_)
  match a with
  | ⟨0, _⟩ => show win0_1.index t (0 : Fin 3) * 1 + 1 * 0 = b.val; omega
  | ⟨1, _⟩ => show win0_1.index t (1 : Fin 3) * 2048 + 1 * j.val = r.val; omega
  | ⟨2, _⟩ => show win0_1.index t (2 : Fin 3) * 256 + 1 * k.val = k.val; omega

end

/-- What an odd point stores into the output block, at an index: the partial summary held from the even point before
    plus the point's own. -/
theorem stored_apply (ka va kb vb : Vec Ideal S1x2048x256 .f32) (y : S1x256x256.Idx) :
    k0_pay4 (F := Ideal) (k0_pay3 (F := Ideal) kb vb (k0_pay2 (F := Ideal) ka va)) y
      = (∑ j : Fin 2048, Attn.unit (fun k => ka (ix3 (0 : Fin 1) j k)) (y 1) * va (ix3 (0 : Fin 1) j (y 2)))
        + ∑ j : Fin 2048, Attn.unit (fun k => kb (ix3 (0 : Fin 1) j k)) (y 1) * vb (ix3 (0 : Fin 1) j (y 2)) := by
  obtain ⟨u, p, q, rfl⟩ : ∃ (u : Fin 1) (p q : Fin 256), y = ix3 u p q := ⟨y 0, y 1, y 2, eq_ix3 y⟩
  obtain rfl : u = 0 := Subsingleton.elim _ _
  rw [pay4_apply, pay3_apply, pay2_apply]

/-! ## From the blocks to the array -/

/-- An index of the output array is in point t's block iff each coordinate is in the block's range on its axis. -/
theorem mem_blk0_2 (t : Fin cfg0.N) (i : S8x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0).slice (win0_2.rect t)).set ↔ _
  rw [View.set_slice_whole, Rect.mem_set_unit]
  exact Iff.rfl

section
variable (V : (c : Dev nD) → (b : Ref sig .tc) → Buf (Elt Ideal) ((c : Thread nD τ).loc b))

/-- What an odd point writes back is its block of the key/value summary of the whole arrays: the two halves of the
    sum over the 4096 rows are the two points of the batch.  Stated over any proof data whose output buffer and
    accumulator are a recursion with these two value equations. -/
theorem flushed0_of (c : Dev nD) (dat : Dat τ (Elt Ideal) Unit ℕ (UR sig nD τ) ℕ cfg0 c)
    (outs : (n : ℕ) → n < cfg0.N → Vec Ideal S1x256x256 .bf16 × Vec Ideal S256x256 .f32)
    (hafter : ∀ t : Fin cfg0.N, dat.after 2 t = (outs t.val t.isLt).1)
    (heven : ∀ t : Fin cfg0.N, t.val % 2 = 0 → (outs t.val t.isLt).2 = k0_pay2 (iblk0 V c 0 t) (iblk0 V c 1 t))
    (hodd : ∀ t : Fin cfg0.N, t.val % 2 = 1 → (outs t.val t.isLt).1
      = k0_pay4 (k0_pay3 (iblk0 V c 0 t) (iblk0 V c 1 t) (outs (t.val - 1) (Nat.lt_of_le_of_lt (Nat.sub_le _ _) t.isLt)).2))
    (t : Fin cfg0.N) (hf : (cfg0.win 2).flush t = true) :
    dat.flushed 2 t = ((cfg0.win 2).blk t).view.read (Elt Ideal) (Attn.kvArr (V c main_arg1) (V c main_arg2)) := by
  have h1 : t.val % 2 = 1 := (flush0_2 t).mp hf
  have hN : cfg0.N = 16 := N_0
  have htlt : t.val < 16 := hN ▸ t.isLt
  have hlt : t.val - 1 < cfg0.N := Nat.lt_of_le_of_lt (Nat.sub_le _ _) t.isLt
  have hev : (⟨t.val - 1, hlt⟩ : Fin cfg0.N).val % 2 = 0 := by show (t.val - 1) % 2 = 0; omega
  have e : (outs (t.val - 1) (Nat.lt_of_le_of_lt (Nat.sub_le _ _) t.isLt)).2
      = k0_pay2 (iblk0 V c 0 ⟨t.val - 1, hlt⟩) (iblk0 V c 1 ⟨t.val - 1, hlt⟩) := heven ⟨t.val - 1, hlt⟩ hev
  show (cfg0.win 2).cut (grid0.coords t) (dat.after 2 t) = _
  rw [hafter t, hodd t h1, e]
  funext y
  show k0_pay4 (F := Ideal) (k0_pay3 (F := Ideal) (iblk0 V c 0 t) (iblk0 V c 1 t)
      (k0_pay2 (F := Ideal) (iblk0 V c 0 ⟨t.val - 1, hlt⟩) (iblk0 V c 1 ⟨t.val - 1, hlt⟩))) y
    = Attn.kvArr (V c main_arg1) (V c main_arg2) (((cfg0.win 2).blk t).view.emb y)
  refine (stored_apply (iblk0 V c 0 ⟨t.val - 1, hlt⟩) (iblk0 V c 1 ⟨t.val - 1, hlt⟩) (iblk0 V c 0 t) (iblk0 V c 1 t) y).trans ?_
  obtain ⟨-, -, -, -, -, -, e0, e1, e2⟩ := idx0 t
  have hb : t.val / 2 < 8 := by omega
  have hy0 : (y 0).val < 1 := (y 0).isLt
  have hy1 : (y 1).val < 256 := (y 1).isLt
  have hy2 : (y 2).val < 256 := (y 2).isLt
  have hemb : ((cfg0.win 2).blk t).view.emb y
      = ix3 (⟨t.val / 2, hb⟩ : Fin 8) (⟨(y 1).val, hy1⟩ : Fin 256) (⟨(y 2).val, hy2⟩ : Fin 256) := funext fun a => Fin.ext (by
    match a with
    | ⟨0, _⟩ => show win0_2.index t (0 : Fin 3) * 1 + 1 * (y 0).val = t.val / 2; omega
    | ⟨1, _⟩ => show win0_2.index t (1 : Fin 3) * 256 + 1 * (y 1).val = (y 1).val; omega
    | ⟨2, _⟩ => show win0_2.index t (2 : Fin 3) * 256 + 1 * (y 2).val = (y 2).val; omega)
  rw [hemb]
  show _ = Attn.kv (V c main_arg1) (V c main_arg2) (⟨t.val / 2, hb⟩ : Fin 8) (⟨(y 1).val, hy1⟩ : Fin 256) (⟨(y 2).val, hy2⟩ : Fin 256)
  unfold Attn.kv
  rw [Attn.sum_halves]
  refine congrArg₂ (· + ·) (Finset.sum_congr rfl fun j _ => ?_) (Finset.sum_congr rfl fun j _ => ?_)
  · have hbe : (⟨t.val / 2, hb⟩ : Fin 8).val = (⟨t.val - 1, hlt⟩ : Fin cfg0.N).val / 2 := by show t.val / 2 = (t.val - 1) / 2; omega
    have hre : ∀ jj : Fin 2048, (⟨jj.val, by omega⟩ : Fin 4096).val = 2048 * ((⟨t.val - 1, hlt⟩ : Fin cfg0.N).val % 2) + jj.val := fun jj => by
      show jj.val = 2048 * ((t.val - 1) % 2) + jj.val; omega
    refine congrArg₂ (· * ·) ?_ (vals_at V c ⟨t.val - 1, hlt⟩ ⟨t.val / 2, hb⟩ ⟨j.val, by omega⟩ j ⟨(y 2).val, hy2⟩ hbe (hre j))
    exact congrArg (fun row => Attn.unit row (⟨(y 1).val, hy1⟩ : Fin 256))
      (funext fun k => keys_at V c ⟨t.val - 1, hlt⟩ ⟨t.val / 2, hb⟩ ⟨j.val, by omega⟩ j k hbe (hre j))
  · have hbe : (⟨t.val / 2, hb⟩ : Fin 8).val = t.val / 2 := rfl
    have hre : ∀ jj : Fin 2048, (⟨2048 + jj.val, by omega⟩ : Fin 4096).val = 2048 * (t.val % 2) + jj.val := fun jj => by
      show 2048 + jj.val = 2048 * (t.val % 2) + jj.val; omega
    refine congrArg₂ (· * ·) ?_ (vals_at V c t ⟨t.val / 2, hb⟩ ⟨2048 + j.val, by omega⟩ j ⟨(y 2).val, hy2⟩ hbe (hre j))
    exact congrArg (fun row => Attn.unit row (⟨(y 1).val, hy1⟩ : Fin 256))
      (funext fun k => keys_at V c t ⟨t.val / 2, hb⟩ ⟨2048 + j.val, by omega⟩ j k hbe (hre j))

/-- The odd points' blocks cover the output array: index (b, c, d) is in the block of point 2·b + 1. -/
theorem cover0_2 (i : S8x256x256.Idx) :
    ∃ t : Fin cfg0.N, (cfg0.win 2).flush t = true ∧ i ∈ ((cfg0.win 2).blk t).view.set := by
  have hN : cfg0.N = 16 := N_0
  have hi0 : (i 0).val < 8 := (i 0).isLt
  have hi1 : (i 1).val < 256 := (i 1).isLt
  have hi2 : (i 2).val < 256 := (i 2).isLt
  have ht : 2 * (i 0).val + 1 < cfg0.N := by omega
  refine ⟨⟨2 * (i 0).val + 1, ht⟩, (flush0_2 _).mpr (by show (2 * (i 0).val + 1) % 2 = 1; omega), ?_⟩
  obtain ⟨-, -, -, -, -, -, e0, e1, e2⟩ := idx0 ⟨2 * (i 0).val + 1, ht⟩
  have e0' : win0_2.index ⟨2 * (i 0).val + 1, ht⟩ (0 : Fin 3) = (i 0).val := by rw [e0]; show (2 * (i 0).val + 1) / 2 = (i 0).val; omega
  rw [mem_blk0_2]
  intro a
  match a with
  | ⟨0, _⟩ => show win0_2.index ⟨2 * (i 0).val + 1, ht⟩ (0 : Fin 3) * 1 ≤ (i 0).val ∧ (i 0).val < win0_2.index ⟨2 * (i 0).val + 1, ht⟩ (0 : Fin 3) * 1 + 1; omega
  | ⟨1, _⟩ => show win0_2.index ⟨2 * (i 0).val + 1, ht⟩ (1 : Fin 3) * 256 ≤ (i 1).val ∧ (i 1).val < win0_2.index ⟨2 * (i 0).val + 1, ht⟩ (1 : Fin 3) * 256 + 256; omega
  | ⟨2, _⟩ => show win0_2.index ⟨2 * (i 0).val + 1, ht⟩ (2 : Fin 3) * 256 ≤ (i 2).val ∧ (i 2).val < win0_2.index ⟨2 * (i 0).val + 1, ht⟩ (2 : Fin 3) * 256 + 256; omega

/-- So the output array ends holding the key/value summary of the keys and the values as the region finds them. -/
theorem final0_of (c : Dev nD) (dat : Dat τ (Elt Ideal) Unit ℕ (UR sig nD τ) ℕ cfg0 c)
    (outs : (n : ℕ) → n < cfg0.N → Vec Ideal S1x256x256 .bf16 × Vec Ideal S256x256 .f32)
    (hafter : ∀ t : Fin cfg0.N, dat.after 2 t = (outs t.val t.isLt).1)
    (heven : ∀ t : Fin cfg0.N, t.val % 2 = 0 → (outs t.val t.isLt).2 = k0_pay2 (iblk0 V c 0 t) (iblk0 V c 1 t))
    (hodd : ∀ t : Fin cfg0.N, t.val % 2 = 1 → (outs t.val t.isLt).1
      = k0_pay4 (k0_pay3 (iblk0 V c 0 t) (iblk0 V c 1 t) (outs (t.val - 1) (Nat.lt_of_le_of_lt (Nat.sub_le _ _) t.isLt)).2)) :
    dat.arrAt 2 cfg0.N = Attn.kvArr (V c main_arg1) (V c main_arg2) :=
  dat.arrAt_eq_of_cover 2 (Attn.kvArr (V c main_arg1) (V c main_arg2))
    (fun t hf => flushed0_of V c dat outs hafter heven hodd t hf) cover0_2

end

/-- The first region's output array after the run: the key/value summary of the keys and the values. -/
theorem final0 (V : (c : Dev nD) → (b : Ref sig .tc) → Buf (Elt Ideal) ((c : Thread nD τ).loc b)) (c : Dev nD) :
    (dat0 V c).arrAt 2 cfg0.N = Cert.Attn.kvArr (V c main_arg1) (V c main_arg2) :=
  final0_of V c (dat0 V c) (outsAt0 V c) (after0_2 V c) (scratch_even V c) (out_odd V c)

end Cert.KernelIdeal.Hand

end
-- ==== Proof.KI.Val1.lean ====
/-
  The second kernel region's output array at the extended reals.  The grid's 16 points are the pairs (batch `b`, half `h`),
  point `t = 2 b + h`.  Point `t` reads rows `2048 h … 2048 h + 2047` of batch `b` of the queries and batch `b` of the
  key/value summary, and writes the same rows of batch `b` of the output: entry `(n, d)` of its block is
  `(Σ_c q̂[b, 2048 h + n, c] · w[b, c, d]) · 2⁻¹²`, the scaled context at `(b, 2048 h + n, d)`.  So each point writes back
  its block of ONE function of the whole arrays, and the 16 blocks tile the output: index `(b, r, d)` lies in the block of
  point `2 b + r / 2048`.  Hence the output array after the region is that function.
-/
import proofs.«128375_j39152921870872_2_alg».proof.Proof.KI.Region1
import proofs.«128375_j39152921870872_2_alg».proof.Proof.KI.Pay
import proofs.«128375_j39152921870872_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- Three zero offsets, however spelt. -/
theorem zero_offsets1 : (![0, 0, 0] : Fin 3 → Nat) = fun _ => 0 := funext fun a => by fin_cases a <;> rfl

/-- The printed index maps, decided over the 16 grid points: at point `t` the query block and the output block are
    block `(t / 2, t % 2, 0)` of their arrays and the summary block is block `(t / 2, 0, 0)` of its array. -/
theorem block_index1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = t.val % 2 ∧ win1_2.index t (2 : Fin 3) = 0 :=
  (by decide +kernel : ∀ t : Fin grid1.N, _)

/-- One entry of the output block, over blocks given by their entries: when the query block holds rows
    `2048 h … 2048 h + 2047` of batch `b` of the queries `q` and the summary block holds batch `b` of the summary `w`,
    entry `y` of the body's payload is the scaled context at the array index `i` that `y` sits at. -/
theorem ctx_entry1 (q : Attn.Big.Idx → EReal) (w : Attn.Sq.Idx → EReal)
    (x0 : Vec Ideal S1x2048x256 .f32) (x1 : Vec Ideal S1x256x256 .bf16) (b : Fin 8) (h : Fin 2)
    (h0 : ∀ (n : Fin 2048) (k : Fin 256), x0 (ix3 (0 : Fin 1) n k) = q (ix3 b ⟨2048 * h.val + n.val, by omega⟩ k))
    (h1 : ∀ (c d : Fin 256), x1 (ix3 (0 : Fin 1) c d) = w (ix3 b c d))
    (y : S1x2048x256.Idx) (i : Attn.Big.Idx)
    (hi0 : (i 0).val = b.val) (hi1 : (i 1).val = 2048 * h.val + (y 1).val) (hi2 : (i 2).val = (y 2).val) :
    k1_pay1 (F := Ideal) x0 x1 y = Attn.outMul q w i := by
  obtain ⟨z, n, d, rfl⟩ : ∃ (z : Fin 1) (n : Fin 2048) (d : Fin 256), y = ix3 z n d := ⟨y 0, y 1, y 2, eq_ix3 y⟩
  obtain rfl : z = 0 := Subsingleton.elim _ _
  have hi : i = ix3 b ⟨2048 * h.val + n.val, by omega⟩ d := by
    funext a
    match a with
    | ⟨0, _⟩ => exact Fin.ext hi0
    | ⟨1, _⟩ => exact Fin.ext hi1
    | ⟨2, _⟩ => exact Fin.ext hi2
  rw [hi, k1_pay1_apply]
  unfold Attn.outMul
  rw [Attn.of3_ix3]
  unfold Attn.ctx Attn.rowOf
  simp only [h0, h1]

section
variable (V : (c : Dev nD) → (b : Ref sig .tc) → Buf (Elt Ideal) ((c : Thread nD τ).loc b))

/-- What point `t` writes back is block `t` of the scaled context of the queries and the summary as the region finds
    them: the query block is rows `2048 (t % 2) …` of batch `t / 2`, the summary block is batch `t / 2`, and the output
    block sits at the same rows of the same batch. -/
theorem written_back1 (c : Dev nD) (t : Fin cfg1.N) :
    (dat1 V c).flushed 2 t
      = ((cfg1.win 2).blk t).view.read (Elt Ideal) (Attn.outMul (V c main_arg0) (V c main_v0)) := by
  show (cfg1.win 2).cut (grid1.coords t) ((dat1 V c).after 2 t) = _
  rw [after1_2]
  unfold out1_2
  rw [View.canon_unit_zero zero_offsets1]
  simp only [View.ld_unit_zero (S := S1x2048x256) zero_offsets1, View.ld_unit_zero (S := S1x256x256) zero_offsets1]
  obtain ⟨a0, a1, a2, b0, b1, b2, c0, c1, c2⟩ := block_index1 t
  have ht : t.val < 16 := lt_of_lt_of_eq t.isLt N_1
  funext y
  show k1_pay1 (F := Ideal) (iblk1 V c 0 t) (iblk1 V c 1 t) y
    = Attn.outMul (V c main_arg0) (V c main_v0) (((cfg1.win 2).blk t).view.emb y)
  refine ctx_entry1 (V c main_arg0) (V c main_v0) _ _ ⟨t.val / 2, by omega⟩ ⟨t.val % 2, by omega⟩ ?_ ?_ y _ ?_ ?_ ?_
  · intro n k
    show V c main_arg0 (((cfg1.win 0).blk t).view.emb (ix3 (0 : Fin 1) n k)) = _
    refine congrArg _ (funext fun a => Fin.ext ?_)
    match a with
    | ⟨0, _⟩ => show win1_0.index t (0 : Fin 3) * 1 + 1 * 0 = t.val / 2; omega
    | ⟨1, _⟩ => show win1_0.index t (1 : Fin 3) * 2048 + 1 * n.val = 2048 * (t.val % 2) + n.val; omega
    | ⟨2, _⟩ => show win1_0.index t (2 : Fin 3) * 256 + 1 * k.val = k.val; omega
  · intro p d
    show V c main_v0 (((cfg1.win 1).blk t).view.emb (ix3 (0 : Fin 1) p d)) = _
    refine congrArg _ (funext fun a => Fin.ext ?_)
    match a with
    | ⟨0, _⟩ => show win1_1.index t (0 : Fin 3) * 1 + 1 * 0 = t.val / 2; omega
    | ⟨1, _⟩ => show win1_1.index t (1 : Fin 3) * 256 + 1 * p.val = p.val; omega
    | ⟨2, _⟩ => show win1_1.index t (2 : Fin 3) * 256 + 1 * d.val = d.val; omega
  · show win1_2.index t (0 : Fin 3) * 1 + 1 * (y 0).val = t.val / 2
    have : (y 0).val < 1 := (y 0).isLt
    omega
  · show win1_2.index t (1 : Fin 3) * 2048 + 1 * (y 1).val = 2048 * (t.val % 2) + (y 1).val
    omega
  · show win1_2.index t (2 : Fin 3) * 256 + 1 * (y 2).val = (y 2).val
    omega

/-- An index of the output array is in point `t`'s block iff on each axis it is within the block's range. -/
theorem mem_block1 (t : Fin cfg1.N) (i : S8x4096x256.Idx) :
    i ∈ ((cfg1.win 2).blk t).view.set
      ↔ ∀ a : Fin 3, win1_2.index t a * S1x2048x256.size a ≤ (i a).val
          ∧ (i a).val < win1_2.index t a * S1x2048x256.size a + S1x2048x256.size a := by
  show i ∈ ((View.whole main_v1).slice (win1_2.rect t)).set ↔ _
  rw [View.set_slice_whole, Rect.mem_set_unit]
  exact Iff.rfl

/-- The blocks tile the output array: index `(b, r, d)` is in the block of point `2 b + r / 2048`, which writes back. -/
theorem blocks_cover1 (i : S8x4096x256.Idx) :
    ∃ t : Fin cfg1.N, (cfg1.win 2).flush t = true ∧ i ∈ ((cfg1.win 2).blk t).view.set := by
  have h0 : (i 0).val < 8 := (i 0).isLt
  have h1 : (i 1).val < 4096 := (i 1).isLt
  have h2 : (i 2).val < 256 := (i 2).isLt
  obtain ⟨t, ht⟩ : ∃ t : Fin cfg1.N, t.val = 2 * (i 0).val + (i 1).val / 2048 :=
    ⟨⟨2 * (i 0).val + (i 1).val / 2048, lt_of_lt_of_eq (by omega : 2 * (i 0).val + (i 1).val / 2048 < 16) N_1.symm⟩, rfl⟩
  obtain ⟨-, -, -, -, -, -, c0, c1, c2⟩ := block_index1 t
  refine ⟨t, flush1_2 t, ?_⟩
  rw [mem_block1]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 2048 ≤ (i 1).val ∧ (i 1).val < win1_2.index t (1 : Fin 3) * 2048 + 2048
    omega
  | ⟨2, _⟩ =>
    show win1_2.index t (2 : Fin 3) * 256 ≤ (i 2).val ∧ (i 2).val < win1_2.index t (2 : Fin 3) * 256 + 256
    omega

/-- The output array after the region: the scaled context of the queries and the summary as the region finds them. -/
theorem final1 (V : (c : Dev nD) → (b : Ref sig .tc) → Buf (Elt Ideal) ((c : Thread nD τ).loc b)) (c : Dev nD) :
    (dat1 V c).arrAt 2 cfg1.N = Cert.Attn.outMul (V c main_arg0) (V c main_v0) :=
  (dat1 V c).arrAt_eq_of_cover 2 (Attn.outMul (V c main_arg0) (V c main_v0)) (fun t _ => written_back1 V c t) blocks_cover1

end

end Cert.KernelIdeal.Hand

end
-- ==== Proof.Assembly.lean ====
/-
  The certificate's claims, assembled.

  Frames: each program runs from any memory — every weakly fair execution terminates, nothing faulting — and
  leaves its three argument arrays as it found them.
  The algebraic claim: on the extended reals the two-region kernel and the reference end with one array,
    out[b, n, d] = (Σ_c q̂[b, n, c] · (Σ_j k̂[b, j, c] · v[b, j, d])) / 4096,
  with q̂ and k̂ the queries' and the keys' rows divided by their clamped Euclidean norms.  On the kernel's side
  the second region's write-backs leave the context of the queries and of the summary it finds, scaled by 2⁻¹²;
  the summary it finds is what the first region's write-backs leave, the sum over all 4096 rows; and the product
  with 2⁻¹² is the quotient by 4096 on every extended real.  On the reference's side the program's result term is
  that function of its arguments, which agree with the kernel's.
-/
import proofs.«128375_j39152921870872_2_alg».proof.Defs
import proofs.«128375_j39152921870872_2_alg».proof.Proof.Gen.KernelIdeal
import proofs.«128375_j39152921870872_2_alg».proof.Proof.Gen.ReferenceIdeal
import proofs.«128375_j39152921870872_2_alg».proof.Proof.Gen.Pre_finite_inputs
import proofs.«128375_j39152921870872_2_alg».proof.Proof.Gen.ReferenceIdeal.Run
import proofs.«128375_j39152921870872_2_alg».proof.Proof.Gen.ReferenceIdeal.Read
import proofs.«128375_j39152921870872_2_alg».proof.Proof.Spec
import proofs.«128375_j39152921870872_2_alg».proof.Proof.Ref
import proofs.«128375_j39152921870872_2_alg».proof.Proof.KI.Run
import proofs.«128375_j39152921870872_2_alg».proof.Proof.KI.Val0
import proofs.«128375_j39152921870872_2_alg».proof.Proof.KI.Val1

noncomputable section

namespace Cert.Proof.Claims

open Idealize.ShloMosaic Idealize.ShloMosaic.TcCoe Idealize.SL.Sem

/-! ## The result both programs end with -/

/-- The array both programs end with on device \`c\`, from the kernel's memory at launch: the context of the
    normalised queries and the key/value summary, divided by 4096. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v1) :=
  Cert.Attn.outDiv (m ((c.tc : Thread Cert.KernelIdeal.nD Cert.KernelIdeal.τ).loc Cert.KernelIdeal.main_arg0))
    (Cert.Attn.kvArr (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))

/-- What the kernel's second region leaves in the result array is that array: the second region finds the queries
    as launched and the summary the first region left, which is the sum over all rows of the keys and values as
    launched; and the product with 2⁻¹² is the quotient by 4096. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Hand.dat1 (Cert.KernelIdeal.Hand.V2 m) c).arrAt 2 Cert.KernelIdeal.cfg1.N = result m c := by
  have hsum : Cert.KernelIdeal.Hand.V2 m c Cert.KernelIdeal.main_v0
      = Cert.Attn.kvArr (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
    (Cert.KernelIdeal.Hand.V2_main_v0 m c).trans
      ((Cert.KernelIdeal.Hand.final0 (Cert.KernelIdeal.Hand.V0 m) c).trans
        (congrArg₂ Cert.Attn.kvArr (Cert.KernelIdeal.Hand.V0_main_arg1 m c) (Cert.KernelIdeal.Hand.V0_main_arg2 m c)))
  exact (Cert.KernelIdeal.Hand.final1 (Cert.KernelIdeal.Hand.V2 m) c).trans
    ((congrArg₂ Cert.Attn.outMul (Cert.KernelIdeal.Hand.V2_main_arg0 m c) hsum).trans
      (Cert.Attn.outMul_eq_outDiv _ _))

/-! ## The claims -/

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal values the kernel's result array ends at \`result\` (the run, then \`kernel_result\`), and so does the
    reference's, whose result term is that function of arguments that agree with the kernel's. -/
theorem algebraic : Cert.algebraic_KernelIdeal_ReferenceIdeal := by
  intro m ρ m' ρ' _ hagree
  refine ⟨result m, ?_, ?_⟩
  · exact (θ_run Cert.KernelIdeal.defs _ _).mono (fun _ h c => ⟨(h c).1.trans (kernel_result m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_eq,
      (hagree c).1, (hagree c).2.1, (hagree c).2.2]
    rfl

end Cert.Proof.Claims

end
-- ==== Proof.lean ====
/-
  L2-normalised linear attention on arrays of shape [8, 4096, 256]: a kernel of two regions against its plain
  reference.  The first region accumulates, per batch, the summary kv[b, c, d] = Σ_j k̂[b, j, c] · v[b, j, d] over the
  4096 rows in two halves of 2048, keeping the first half's partial product in an accumulator between the two grid
  points of the batch; the second region forms ctx[b, n, d] = Σ_c q̂[b, n, c] · kv[b, c, d] and scales it by 2⁻¹².  Here
  q̂ and k̂ are the queries' and the keys' rows divided by their Euclidean norms clamped below by a small constant.
  The reference computes the same sums over whole arrays and divides by 4096.  On the extended reals the two agree:
  the split of the row sum is associativity of addition, and the product with 2⁻¹² is the quotient by 4096 at every
  extended real, so the finiteness of the inputs is never used.  The ideal pass rewrote nothing, so the word-level
  kernel and its idealization are one text read at two instances; each program's frame is its run with the result
  forgotten.
-/
import proofs.«128375_j39152921870872_2_alg».proof.Defs
import proofs.«128375_j39152921870872_2_alg».proof.Proof.Gen.Kernel
import proofs.«128375_j39152921870872_2_alg».proof.Proof.Gen.KernelIdeal
import proofs.«128375_j39152921870872_2_alg».proof.Proof.Gen.ReferenceIdeal
import proofs.«128375_j39152921870872_2_alg».proof.Proof.Gen.Pre_finite_inputs
import proofs.«128375_j39152921870872_2_alg».proof.Proof.K.Run
import proofs.«128375_j39152921870872_2_alg».proof.Proof.Assembly

noncomputable section

namespace Cert.Proof

open Idealize.ShloMosaic Idealize.SL.Sem

/-- The word-level kernel runs and leaves its argument arrays as it found them: the run of its two regions at the
    bit-exact instance, the result forgotten. -/
theorem frame_k : Cert.frame_Kernel := fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_k, Claims.frame_ki, Claims.frame_ri, Claims.preserves, Claims.algebraic⟩

end Cert.Proof

end
